-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192x16 : Shape := ⟨3, ![256, 8192, 16]⟩
abbrev S_ : Shape := ⟨0, ![]⟩

class Facts : Prop where
  bcast_S_S256x8192x16 : S_.BroadcastsInDim S256x8192x16 (![] : Fin 0 → Fin S256x8192x16.rank)
  reducesTo_S256x8192x16_S_d0_1_2 : S256x8192x16.ReducesTo [0, 1, 2] S_
  h_S_ : 0 < S_.numel

variable [Facts]

def fn {F : FTy → Type} [FloatOps F] (main_arg0 : FVec F S256x8192x16 .f32) : IVec S_ 1 :=
  let main_v0 : FVec F S256x8192x16 .f32 := Host.absf main_arg0
  let main_cst : FVec F S_ .f32 := constant S_ .f32 0x7F800000#32
  let main_v1 : FVec F S256x8192x16 .f32 := broadcastInDim S256x8192x16 ![] bcast_S_S256x8192x16 main_cst
  let main_v2 : IVec S256x8192x16 1 := cmpf .olt main_v0 main_v1
  let main_c : IVec S_ 1 := constantI S_ 1 1#1
  let main_v3 : IVec S_ 1 := (fun x v => Host.reduce IntOp.andi x v reducesTo_S256x8192x16_S_d0_1_2 h_S_) main_v2 main_c
  main_v3
-- ==== Kernel.lean ====
abbrev S256x8192x16 : Shape := ⟨3, ![256, 8192, 16]⟩
abbrev S8x2048x16 : Shape := ⟨3, ![8, 2048, 16]⟩
abbrev S16x8x128 : Shape := ⟨3, ![16, 8, 128]⟩
abbrev S8x128x16 : Shape := ⟨3, ![8, 128, 16]⟩
abbrev S1x8x128 : Shape := ⟨3, ![1, 8, 128]⟩
abbrev S8x128 : Shape := ⟨2, ![8, 128]⟩

abbrev nBuf : Space → Nat
  | .hbm => 2
  | .vmem => 5
  | .smem => 0
  | _ => 0

abbrev bufTy : (tb : Table) → Fin (tcTables nBuf tb) → BufTy
  | .hbm, ⟨0, _⟩ => ⟨S256x8192x16, .f32⟩
  | .hbm, ⟨1, _⟩ => ⟨S256x8192x16, .f32⟩
  | .local _ .vmem, ⟨0, _⟩ => ⟨S8x2048x16, .f32⟩
  | .local _ .vmem, ⟨1, _⟩ => ⟨S8x2048x16, .f32⟩
  | .local _ .vmem, ⟨2, _⟩ => ⟨S8x2048x16, .f32⟩
  | .local _ .vmem, ⟨3, _⟩ => ⟨S8x2048x16, .f32⟩
  | .local _ .vmem, ⟨4, _⟩ => ⟨S16x8x128, .f32⟩
  | _, _ => ⟨S256x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def k0_mult1 : BitVec 32 :=
  let c0_i32 : BitVec 32 := 0#32
  let c128_i32 : BitVec 32 := 128#32
  let v0 : BitVec 32 := Scalar.muli c0_i32 c128_i32
  v0
def k0_off1 (c0_i32 : BitVec 32) : Fin 3 → Nat :=
  let c0 : Index := 0#32
  let c128_i32 : BitVec 32 := 128#32
  let v0 : BitVec 32 := Scalar.muli c0_i32 c128_i32
  let v1 : BitVec 32 := v0
  let v2 : Index := Scalar.indexCast v1
  let c0_0 : Index := 0#32
  ![0, v2.toNat, 0]
def k0_mult2 : BitVec 32 :=
  let c1_i32 : BitVec 32 := 1#32
  let c128_i32_39 : BitVec 32 := 128#32
  let v329 : BitVec 32 := Scalar.muli c1_i32 c128_i32_39
  v329
def k0_mult3 : BitVec 32 :=
  let c2_i32 : BitVec 32 := 2#32
  let c128_i32_95 : BitVec 32 := 128#32
  let v658 : BitVec 32 := Scalar.muli c2_i32 c128_i32_95
  v658
def k0_mult4 : BitVec 32 :=
  let c3_i32 : BitVec 32 := 3#32
  let c128_i32_151 : BitVec 32 := 128#32
  let v987 : BitVec 32 := Scalar.muli c3_i32 c128_i32_151
  v987
def k0_mult5 : BitVec 32 :=
  let c4_i32 : BitVec 32 := 4#32
  let c128_i32_207 : BitVec 32 := 128#32
  let v1316 : BitVec 32 := Scalar.muli c4_i32 c128_i32_207
  v1316
def k0_mult6 : BitVec 32 :=
  let c5_i32 : BitVec 32 := 5#32
  let c128_i32_263 : BitVec 32 := 128#32
  let v1645 : BitVec 32 := Scalar.muli c5_i32 c128_i32_263
  v1645
def k0_mult7 : BitVec 32 :=
  let c6_i32 : BitVec 32 := 6#32
  let c128_i32_319 : BitVec 32 := 128#32
  let v1974 : BitVec 32 := Scalar.muli c6_i32 c128_i32_319
  v1974
def k0_mult8 : BitVec 32 :=
  let c7_i32 : BitVec 32 := 7#32
  let c128_i32_375 : BitVec 32 := 128#32
  let v2303 : BitVec 32 := Scalar.muli c7_i32 c128_i32_375
  v2303
def k0_mult9 : BitVec 32 :=
  let c8_i32 : BitVec 32 := 8#32
  let c128_i32_431 : BitVec 32 := 128#32
  let v2632 : BitVec 32 := Scalar.muli c8_i32 c128_i32_431
  v2632
def k0_mult10 : BitVec 32 :=
  let c9_i32 : BitVec 32 := 9#32
  let c128_i32_487 : BitVec 32 := 128#32
  let v2961 : BitVec 32 := Scalar.muli c9_i32 c128_i32_487
  v2961
def k0_mult11 : BitVec 32 :=
  let c10_i32 : BitVec 32 := 10#32
  let c128_i32_543 : BitVec 32 := 128#32
  let v3290 : BitVec 32 := Scalar.muli c10_i32 c128_i32_543
  v3290
def k0_mult12 : BitVec 32 :=
  let c11_i32 : BitVec 32 := 11#32
  let c128_i32_599 : BitVec 32 := 128#32
  let v3619 : BitVec 32 := Scalar.muli c11_i32 c128_i32_599
  v3619
def k0_mult13 : BitVec 32 :=
  let c12_i32 : BitVec 32 := 12#32
  let c128_i32_655 : BitVec 32 := 128#32
  let v3948 : BitVec 32 := Scalar.muli c12_i32 c128_i32_655
  v3948
def k0_mult14 : BitVec 32 :=
  let c13_i32 : BitVec 32 := 13#32
  let c128_i32_711 : BitVec 32 := 128#32
  let v4277 : BitVec 32 := Scalar.muli c13_i32 c128_i32_711
  v4277
def k0_mult15 : BitVec 32 :=
  let c14_i32 : BitVec 32 := 14#32
  let c128_i32_767 : BitVec 32 := 128#32
  let v4606 : BitVec 32 := Scalar.muli c14_i32 c128_i32_767
  v4606
def k0_mult16 : BitVec 32 :=
  let c15_i32 : BitVec 32 := 15#32
  let c128_i32_823 : BitVec 32 := 128#32
  let v4935 : BitVec 32 := Scalar.muli c15_i32 c128_i32_823
  v4935
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S8x128x16 : 0 < S8x128x16.numel
  transposes_S8x128x16_p2_0_1_S16x8x128 : S8x128x16.Transposes [2, 0, 1] S16x8x128
  slices_S16x8x128_o0_0_0_S1x8x128 : S16x8x128.Slices ![0, 0, 0] S1x8x128
  shapeCasts_S1x8x128_S8x128 : S1x8x128.ShapeCasts S8x128
  slices_S16x8x128_o1_0_0_S1x8x128 : S16x8x128.Slices ![1, 0, 0] S1x8x128
  slices_S16x8x128_o2_0_0_S1x8x128 : S16x8x128.Slices ![2, 0, 0] S1x8x128
  slices_S16x8x128_o3_0_0_S1x8x128 : S16x8x128.Slices ![3, 0, 0] S1x8x128
  slices_S16x8x128_o4_0_0_S1x8x128 : S16x8x128.Slices ![4, 0, 0] S1x8x128
  slices_S16x8x128_o5_0_0_S1x8x128 : S16x8x128.Slices ![5, 0, 0] S1x8x128
  slices_S16x8x128_o6_0_0_S1x8x128 : S16x8x128.Slices ![6, 0, 0] S1x8x128
  slices_S16x8x128_o7_0_0_S1x8x128 : S16x8x128.Slices ![7, 0, 0] S1x8x128
  slices_S16x8x128_o8_0_0_S1x8x128 : S16x8x128.Slices ![8, 0, 0] S1x8x128
  slices_S16x8x128_o9_0_0_S1x8x128 : S16x8x128.Slices ![9, 0, 0] S1x8x128
  slices_S16x8x128_o10_0_0_S1x8x128 : S16x8x128.Slices ![10, 0, 0] S1x8x128
  slices_S16x8x128_o11_0_0_S1x8x128 : S16x8x128.Slices ![11, 0, 0] S1x8x128
  slices_S16x8x128_o12_0_0_S1x8x128 : S16x8x128.Slices ![12, 0, 0] S1x8x128
  slices_S16x8x128_o13_0_0_S1x8x128 : S16x8x128.Slices ![13, 0, 0] S1x8x128
  slices_S16x8x128_o14_0_0_S1x8x128 : S16x8x128.Slices ![14, 0, 0] S1x8x128
  slices_S16x8x128_o15_0_0_S1x8x128 : S16x8x128.Slices ![15, 0, 0] S1x8x128
  inb_S16x8x128_S1x8x128_0_0_0 : ∀ a, (![0, 0, 0] : Fin 3 → Nat) a + S1x8x128.size a ≤ S16x8x128.size a
  h_S1x8x128 : 0 < S1x8x128.numel
  shapeCasts_S8x128_S1x8x128 : S8x128.ShapeCasts S1x8x128
  inb_S16x8x128_S1x8x128_1_0_0 : ∀ a, (![1, 0, 0] : Fin 3 → Nat) a + S1x8x128.size a ≤ S16x8x128.size a
  inb_S16x8x128_S1x8x128_2_0_0 : ∀ a, (![2, 0, 0] : Fin 3 → Nat) a + S1x8x128.size a ≤ S16x8x128.size a
  inb_S16x8x128_S1x8x128_3_0_0 : ∀ a, (![3, 0, 0] : Fin 3 → Nat) a + S1x8x128.size a ≤ S16x8x128.size a
  inb_S16x8x128_S1x8x128_4_0_0 : ∀ a, (![4, 0, 0] : Fin 3 → Nat) a + S1x8x128.size a ≤ S16x8x128.size a
  inb_S16x8x128_S1x8x128_5_0_0 : ∀ a, (![5, 0, 0] : Fin 3 → Nat) a + S1x8x128.size a ≤ S16x8x128.size a
  inb_S16x8x128_S1x8x128_6_0_0 : ∀ a, (![6, 0, 0] : Fin 3 → Nat) a + S1x8x128.size a ≤ S16x8x128.size a
  inb_S16x8x128_S1x8x128_7_0_0 : ∀ a, (![7, 0, 0] : Fin 3 → Nat) a + S1x8x128.size a ≤ S16x8x128.size a
  inb_S16x8x128_S1x8x128_8_0_0 : ∀ a, (![8, 0, 0] : Fin 3 → Nat) a + S1x8x128.size a ≤ S16x8x128.size a
  inb_S16x8x128_S1x8x128_9_0_0 : ∀ a, (![9, 0, 0] : Fin 3 → Nat) a + S1x8x128.size a ≤ S16x8x128.size a
  inb_S16x8x128_S1x8x128_10_0_0 : ∀ a, (![10, 0, 0] : Fin 3 → Nat) a + S1x8x128.size a ≤ S16x8x128.size a
  inb_S16x8x128_S1x8x128_11_0_0 : ∀ a, (![11, 0, 0] : Fin 3 → Nat) a + S1x8x128.size a ≤ S16x8x128.size a
  inb_S16x8x128_S1x8x128_12_0_0 : ∀ a, (![12, 0, 0] : Fin 3 → Nat) a + S1x8x128.size a ≤ S16x8x128.size a
  inb_S16x8x128_S1x8x128_13_0_0 : ∀ a, (![13, 0, 0] : Fin 3 → Nat) a + S1x8x128.size a ≤ S16x8x128.size a
  inb_S16x8x128_S1x8x128_14_0_0 : ∀ a, (![14, 0, 0] : Fin 3 → Nat) a + S1x8x128.size a ≤ S16x8x128.size a
  inb_S16x8x128_S1x8x128_15_0_0 : ∀ a, (![15, 0, 0] : Fin 3 → Nat) a + S1x8x128.size a ≤ S16x8x128.size a
  inb_S16x8x128_S16x8x128_0_0_0 : ∀ a, (![0, 0, 0] : Fin 3 → Nat) a + S16x8x128.size a ≤ S16x8x128.size a
  h_S16x8x128 : 0 < S16x8x128.numel
  transposes_S16x8x128_p1_2_0_S8x128x16 : S16x8x128.Transposes [1, 2, 0] S8x128x16
  hrank0 : 0 < grid0.rank
  k0_mult1_dvd : 128 ∣ k0_mult1.toNat
  k0_off1_inb : ∀ (r : Fin 16), ∀ a, (k0_off1 (BitVec.ofNat 32 r.val)) a + S8x128x16.size a ≤ S8x2048x16.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x16.size a ≤ S256x8192x16.size a
  hwx0_0 : ∀ i : grid0.Coords, EltTy.bits .f32 = 32 ∨ (Rect.block (s := S256x8192x16) S8x2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x16.size a ≤ S256x8192x16.size a
  hwx0_1 : ∀ i : grid0.Coords, EltTy.bits .f32 = 32 ∨ (Rect.block (s := S256x8192x16) S8x2048x16.size (cc0_transform_1 i) (hinb0_1 i)).WholeWords (EltTy.packing .f32)

variable [Facts₀]

abbrev win0_0 : Pipeline.Window sig grid0 :=
  Pipeline.Window.ofSpec (Memref.whole main_arg0) S8x2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x2048x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x8192x16 : Shape := ⟨3, ![256, 8192, 16]⟩
abbrev S256x8192x1 : Shape := ⟨3, ![256, 8192, 1]⟩
abbrev S256x8192x2 : Shape := ⟨3, ![256, 8192, 2]⟩
abbrev S256x8192x3 : Shape := ⟨3, ![256, 8192, 3]⟩
abbrev S256x8192x4 : Shape := ⟨3, ![256, 8192, 4]⟩
abbrev S256x8192x5 : Shape := ⟨3, ![256, 8192, 5]⟩
abbrev S256x8192x6 : Shape := ⟨3, ![256, 8192, 6]⟩
abbrev S256x8192x7 : Shape := ⟨3, ![256, 8192, 7]⟩
abbrev S256x8192x8 : Shape := ⟨3, ![256, 8192, 8]⟩
abbrev S256x8192x9 : Shape := ⟨3, ![256, 8192, 9]⟩
abbrev S256x8192x10 : Shape := ⟨3, ![256, 8192, 10]⟩
abbrev S256x8192x11 : Shape := ⟨3, ![256, 8192, 11]⟩
abbrev S256x8192x12 : Shape := ⟨3, ![256, 8192, 12]⟩
abbrev S256x8192x13 : Shape := ⟨3, ![256, 8192, 13]⟩
abbrev S256x8192x14 : Shape := ⟨3, ![256, 8192, 14]⟩
abbrev S256x8192x15 : Shape := ⟨3, ![256, 8192, 15]⟩

abbrev nBuf : Space → Nat
  | .hbm => 91
  | .vmem => 0
  | .smem => 0
  | _ => 0

abbrev bufTy : (tb : Table) → Fin (tcTables nBuf tb) → BufTy
  | .hbm, ⟨0, _⟩ => ⟨S256x8192x16, .f32⟩
  | .hbm, ⟨1, _⟩ => ⟨S256x8192x1, .f32⟩
  | .hbm, ⟨2, _⟩ => ⟨S256x8192x1, .f32⟩
  | .hbm, ⟨3, _⟩ => ⟨S256x8192x1, .f32⟩
  | .hbm, ⟨4, _⟩ => ⟨S256x8192x1, .f32⟩
  | .hbm, ⟨5, _⟩ => ⟨S256x8192x1, .f32⟩
  | .hbm, ⟨6, _⟩ => ⟨S256x8192x2, .f32⟩
  | .hbm, ⟨7, _⟩ => ⟨S256x8192x1, .f32⟩
  | .hbm, ⟨8, _⟩ => ⟨S256x8192x2, .f32⟩
  | .hbm, ⟨9, _⟩ => ⟨S256x8192x2, .f32⟩
  | .hbm, ⟨10, _⟩ => ⟨S256x8192x2, .f32⟩
  | .hbm, ⟨11, _⟩ => ⟨S256x8192x2, .f32⟩
  | .hbm, ⟨12, _⟩ => ⟨S256x8192x3, .f32⟩
  | .hbm, ⟨13, _⟩ => ⟨S256x8192x1, .f32⟩
  | .hbm, ⟨14, _⟩ => ⟨S256x8192x3, .f32⟩
  | .hbm, ⟨15, _⟩ => ⟨S256x8192x3, .f32⟩
  | .hbm, ⟨16, _⟩ => ⟨S256x8192x3, .f32⟩
  | .hbm, ⟨17, _⟩ => ⟨S256x8192x3, .f32⟩
  | .hbm, ⟨18, _⟩ => ⟨S256x8192x4, .f32⟩
  | .hbm, ⟨19, _⟩ => ⟨S256x8192x1, .f32⟩
  | .hbm, ⟨20, _⟩ => ⟨S256x8192x4, .f32⟩
  | .hbm, ⟨21, _⟩ => ⟨S256x8192x4, .f32⟩
  | .hbm, ⟨22, _⟩ => ⟨S256x8192x4, .f32⟩
  | .hbm, ⟨23, _⟩ => ⟨S256x8192x4, .f32⟩
  | .hbm, ⟨24, _⟩ => ⟨S256x8192x5, .f32⟩
  | .hbm, ⟨25, _⟩ => ⟨S256x8192x1, .f32⟩
  | .hbm, ⟨26, _⟩ => ⟨S256x8192x5, .f32⟩
  | .hbm, ⟨27, _⟩ => ⟨S256x8192x5, .f32⟩
  | .hbm, ⟨28, _⟩ => ⟨S256x8192x5, .f32⟩
  | .hbm, ⟨29, _⟩ => ⟨S256x8192x5, .f32⟩
  | .hbm, ⟨30, _⟩ => ⟨S256x8192x6, .f32⟩
  | .hbm, ⟨31, _⟩ => ⟨S256x8192x1, .f32⟩
  | .hbm, ⟨32, _⟩ => ⟨S256x8192x6, .f32⟩
  | .hbm, ⟨33, _⟩ => ⟨S256x8192x6, .f32⟩
  | .hbm, ⟨34, _⟩ => ⟨S256x8192x6, .f32⟩
  | .hbm, ⟨35, _⟩ => ⟨S256x8192x6, .f32⟩
  | .hbm, ⟨36, _⟩ => ⟨S256x8192x7, .f32⟩
  | .hbm, ⟨37, _⟩ => ⟨S256x8192x1, .f32⟩
  | .hbm, ⟨38, _⟩ => ⟨S256x8192x7, .f32⟩
  | .hbm, ⟨39, _⟩ => ⟨S256x8192x7, .f32⟩
  | .hbm, ⟨40, _⟩ => ⟨S256x8192x7, .f32⟩
  | .hbm, ⟨41, _⟩ => ⟨S256x8192x7, .f32⟩
  | .hbm, ⟨42, _⟩ => ⟨S256x8192x8, .f32⟩
  | .hbm, ⟨43, _⟩ => ⟨S256x8192x1, .f32⟩
  | .hbm, ⟨44, _⟩ => ⟨S256x8192x8, .f32⟩
  | .hbm, ⟨45, _⟩ => ⟨S256x8192x8, .f32⟩
  | .hbm, ⟨46, _⟩ => ⟨S256x8192x8, .f32⟩
  | .hbm, ⟨47, _⟩ => ⟨S256x8192x8, .f32⟩
  | .hbm, ⟨48, _⟩ => ⟨S256x8192x9, .f32⟩
  | .hbm, ⟨49, _⟩ => ⟨S256x8192x1, .f32⟩
  | .hbm, ⟨50, _⟩ => ⟨S256x8192x9, .f32⟩
  | .hbm, ⟨51, _⟩ => ⟨S256x8192x9, .f32⟩
  | .hbm, ⟨52, _⟩ => ⟨S256x8192x9, .f32⟩
  | .hbm, ⟨53, _⟩ => ⟨S256x8192x9, .f32⟩
  | .hbm, ⟨54, _⟩ => ⟨S256x8192x10, .f32⟩
  | .hbm, ⟨55, _⟩ => ⟨S256x8192x1, .f32⟩
  | .hbm, ⟨56, _⟩ => ⟨S256x8192x10, .f32⟩
  | .hbm, ⟨57, _⟩ => ⟨S256x8192x10, .f32⟩
  | .hbm, ⟨58, _⟩ => ⟨S256x8192x10, .f32⟩
  | .hbm, ⟨59, _⟩ => ⟨S256x8192x10, .f32⟩
  | .hbm, ⟨60, _⟩ => ⟨S256x8192x11, .f32⟩
  | .hbm, ⟨61, _⟩ => ⟨S256x8192x1, .f32⟩
  | .hbm, ⟨62, _⟩ => ⟨S256x8192x11, .f32⟩
  | .hbm, ⟨63, _⟩ => ⟨S256x8192x11, .f32⟩
  | .hbm, ⟨64, _⟩ => ⟨S256x8192x11, .f32⟩
  | .hbm, ⟨65, _⟩ => ⟨S256x8192x11, .f32⟩
  | .hbm, ⟨66, _⟩ => ⟨S256x8192x12, .f32⟩
  | .hbm, ⟨67, _⟩ => ⟨S256x8192x1, .f32⟩
  | .hbm, ⟨68, _⟩ => ⟨S256x8192x12, .f32⟩
  | .hbm, ⟨69, _⟩ => ⟨S256x8192x12, .f32⟩
  | .hbm, ⟨70, _⟩ => ⟨S256x8192x12, .f32⟩
  | .hbm, ⟨71, _⟩ => ⟨S256x8192x12, .f32⟩
  | .hbm, ⟨72, _⟩ => ⟨S256x8192x13, .f32⟩
  | .hbm, ⟨73, _⟩ => ⟨S256x8192x1, .f32⟩
  | .hbm, ⟨74, _⟩ => ⟨S256x8192x13, .f32⟩
  | .hbm, ⟨75, _⟩ => ⟨S256x8192x13, .f32⟩
  | .hbm, ⟨76, _⟩ => ⟨S256x8192x13, .f32⟩
  | .hbm, ⟨77, _⟩ => ⟨S256x8192x13, .f32⟩
  | .hbm, ⟨78, _⟩ => ⟨S256x8192x14, .f32⟩
  | .hbm, ⟨79, _⟩ => ⟨S256x8192x1, .f32⟩
  | .hbm, ⟨80, _⟩ => ⟨S256x8192x14, .f32⟩
  | .hbm, ⟨81, _⟩ => ⟨S256x8192x14, .f32⟩
  | .hbm, ⟨82, _⟩ => ⟨S256x8192x14, .f32⟩
  | .hbm, ⟨83, _⟩ => ⟨S256x8192x14, .f32⟩
  | .hbm, ⟨84, _⟩ => ⟨S256x8192x15, .f32⟩
  | .hbm, ⟨85, _⟩ => ⟨S256x8192x1, .f32⟩
  | .hbm, ⟨86, _⟩ => ⟨S256x8192x15, .f32⟩
  | .hbm, ⟨87, _⟩ => ⟨S256x8192x15, .f32⟩
  | .hbm, ⟨88, _⟩ => ⟨S256x8192x15, .f32⟩
  | .hbm, ⟨89, _⟩ => ⟨S256x8192x15, .f32⟩
  | .hbm, ⟨90, _⟩ => ⟨S256x8192x16, .f32⟩
  | _, _ => ⟨S256x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩

abbrev nD : Nat := 1
abbrev τ : Topo := Topo.v7x

variable {F : FTy → Type} [FloatOps F]

class Facts₀ : Prop where
  slices_S256x8192x16_S256x8192x1_0_0_0 : S256x8192x16.Slices ![0, 0, 0] S256x8192x1
  slices_S256x8192x16_S256x8192x1_0_0_1 : S256x8192x16.Slices ![0, 0, 1] S256x8192x1
  concatenates_S256x8192x1_S256x8192x1_S256x8192x2_d2 : Shape.Concatenates [S256x8192x1, S256x8192x1] S256x8192x2 2
  slices_S256x8192x16_S256x8192x1_0_0_2 : S256x8192x16.Slices ![0, 0, 2] S256x8192x1
  bcast_S256x8192x1_S256x8192x2_0_1_2 : S256x8192x1.BroadcastsInDim S256x8192x2 (![0, 1, 2] : Fin 3 → Fin S256x8192x2.rank)
  concatenates_S256x8192x2_S256x8192x1_S256x8192x3_d2 : Shape.Concatenates [S256x8192x2, S256x8192x1] S256x8192x3 2
  slices_S256x8192x16_S256x8192x1_0_0_3 : S256x8192x16.Slices ![0, 0, 3] S256x8192x1
  bcast_S256x8192x1_S256x8192x3_0_1_2 : S256x8192x1.BroadcastsInDim S256x8192x3 (![0, 1, 2] : Fin 3 → Fin S256x8192x3.rank)
  concatenates_S256x8192x3_S256x8192x1_S256x8192x4_d2 : Shape.Concatenates [S256x8192x3, S256x8192x1] S256x8192x4 2
  slices_S256x8192x16_S256x8192x1_0_0_4 : S256x8192x16.Slices ![0, 0, 4] S256x8192x1
  bcast_S256x8192x1_S256x8192x4_0_1_2 : S256x8192x1.BroadcastsInDim S256x8192x4 (![0, 1, 2] : Fin 3 → Fin S256x8192x4.rank)
  concatenates_S256x8192x4_S256x8192x1_S256x8192x5_d2 : Shape.Concatenates [S256x8192x4, S256x8192x1] S256x8192x5 2
  slices_S256x8192x16_S256x8192x1_0_0_5 : S256x8192x16.Slices ![0, 0, 5] S256x8192x1
  bcast_S256x8192x1_S256x8192x5_0_1_2 : S256x8192x1.BroadcastsInDim S256x8192x5 (![0, 1, 2] : Fin 3 → Fin S256x8192x5.rank)
  concatenates_S256x8192x5_S256x8192x1_S256x8192x6_d2 : Shape.Concatenates [S256x8192x5, S256x8192x1] S256x8192x6 2
  slices_S256x8192x16_S256x8192x1_0_0_6 : S256x8192x16.Slices ![0, 0, 6] S256x8192x1
  bcast_S256x8192x1_S256x8192x6_0_1_2 : S256x8192x1.BroadcastsInDim S256x8192x6 (![0, 1, 2] : Fin 3 → Fin S256x8192x6.rank)
  concatenates_S256x8192x6_S256x8192x1_S256x8192x7_d2 : Shape.Concatenates [S256x8192x6, S256x8192x1] S256x8192x7 2
  slices_S256x8192x16_S256x8192x1_0_0_7 : S256x8192x16.Slices ![0, 0, 7] S256x8192x1
  bcast_S256x8192x1_S256x8192x7_0_1_2 : S256x8192x1.BroadcastsInDim S256x8192x7 (![0, 1, 2] : Fin 3 → Fin S256x8192x7.rank)
  concatenates_S256x8192x7_S256x8192x1_S256x8192x8_d2 : Shape.Concatenates [S256x8192x7, S256x8192x1] S256x8192x8 2
  slices_S256x8192x16_S256x8192x1_0_0_8 : S256x8192x16.Slices ![0, 0, 8] S256x8192x1
  bcast_S256x8192x1_S256x8192x8_0_1_2 : S256x8192x1.BroadcastsInDim S256x8192x8 (![0, 1, 2] : Fin 3 → Fin S256x8192x8.rank)
  concatenates_S256x8192x8_S256x8192x1_S256x8192x9_d2 : Shape.Concatenates [S256x8192x8, S256x8192x1] S256x8192x9 2
  slices_S256x8192x16_S256x8192x1_0_0_9 : S256x8192x16.Slices ![0, 0, 9] S256x8192x1
  bcast_S256x8192x1_S256x8192x9_0_1_2 : S256x8192x1.BroadcastsInDim S256x8192x9 (![0, 1, 2] : Fin 3 → Fin S256x8192x9.rank)
  concatenates_S256x8192x9_S256x8192x1_S256x8192x10_d2 : Shape.Concatenates [S256x8192x9, S256x8192x1] S256x8192x10 2
  slices_S256x8192x16_S256x8192x1_0_0_10 : S256x8192x16.Slices ![0, 0, 10] S256x8192x1
  bcast_S256x8192x1_S256x8192x10_0_1_2 : S256x8192x1.BroadcastsInDim S256x8192x10 (![0, 1, 2] : Fin 3 → Fin S256x8192x10.rank)
  concatenates_S256x8192x10_S256x8192x1_S256x8192x11_d2 : Shape.Concatenates [S256x8192x10, S256x8192x1] S256x8192x11 2
  slices_S256x8192x16_S256x8192x1_0_0_11 : S256x8192x16.Slices ![0, 0, 11] S256x8192x1
  bcast_S256x8192x1_S256x8192x11_0_1_2 : S256x8192x1.BroadcastsInDim S256x8192x11 (![0, 1, 2] : Fin 3 → Fin S256x8192x11.rank)
  concatenates_S256x8192x11_S256x8192x1_S256x8192x12_d2 : Shape.Concatenates [S256x8192x11, S256x8192x1] S256x8192x12 2
  slices_S256x8192x16_S256x8192x1_0_0_12 : S256x8192x16.Slices ![0, 0, 12] S256x8192x1
  bcast_S256x8192x1_S256x8192x12_0_1_2 : S256x8192x1.BroadcastsInDim S256x8192x12 (![0, 1, 2] : Fin 3 → Fin S256x8192x12.rank)
  concatenates_S256x8192x12_S256x8192x1_S256x8192x13_d2 : Shape.Concatenates [S256x8192x12, S256x8192x1] S256x8192x13 2
  slices_S256x8192x16_S256x8192x1_0_0_13 : S256x8192x16.Slices ![0, 0, 13] S256x8192x1
  bcast_S256x8192x1_S256x8192x13_0_1_2 : S256x8192x1.BroadcastsInDim S256x8192x13 (![0, 1, 2] : Fin 3 → Fin S256x8192x13.rank)
  concatenates_S256x8192x13_S256x8192x1_S256x8192x14_d2 : Shape.Concatenates [S256x8192x13, S256x8192x1] S256x8192x14 2
  slices_S256x8192x16_S256x8192x1_0_0_14 : S256x8192x16.Slices ![0, 0, 14] S256x8192x1
  bcast_S256x8192x1_S256x8192x14_0_1_2 : S256x8192x1.BroadcastsInDim S256x8192x14 (![0, 1, 2] : Fin 3 → Fin S256x8192x14.rank)
  concatenates_S256x8192x14_S256x8192x1_S256x8192x15_d2 : Shape.Concatenates [S256x8192x14, S256x8192x1] S256x8192x15 2
  slices_S256x8192x16_S256x8192x1_0_0_15 : S256x8192x16.Slices ![0, 0, 15] S256x8192x1
  bcast_S256x8192x1_S256x8192x15_0_1_2 : S256x8192x1.BroadcastsInDim S256x8192x15 (![0, 1, 2] : Fin 3 → Fin S256x8192x15.rank)
  concatenates_S256x8192x15_S256x8192x1_S256x8192x16_d2 : Shape.Concatenates [S256x8192x15, S256x8192x1] S256x8192x16 2

variable [Facts₀]

class Facts : Prop extends Facts₀ where

variable [Facts]
-- ==== Proof.LibStepUp.lean ====
/-
  The step-up recursion that turns reflection coefficients into predictor coefficients.

  Order 0 has the single coefficient `k 0`. Passing from order `i` (coefficients `a 0 … a i`) to order `i + 1`
  keeps `k (i + 1)` as the new last coefficient and replaces each earlier one by
  `a j + k (i + 1) * a (i - j)`: the old coefficient plus the new reflection coefficient times the old
  coefficients read backwards. Nothing is assumed of the arithmetic beyond a sum and a product, so the
  definition is read at the extended reals exactly as at the reals.
-/
import Mathlib.Data.Nat.Basic
import Mathlib.Tactic

namespace StepUp

variable {α : Type*} [Add α] [Mul α]

/-- `stepUp k i j`: coefficient `j` of the order-`i` predictor built from the reflection coefficients `k`
    (meaningful for `j ≤ i`; past the end it repeats the last reflection coefficient, a harmless default). -/
def stepUp (k : ℕ → α) : ℕ → ℕ → α
  | 0, _ => k 0
  | i + 1, j => if j ≤ i then stepUp k i j + k (i + 1) * stepUp k i (i - j) else k (i + 1)

@[simp] theorem stepUp_zero (k : ℕ → α) (j : ℕ) : stepUp k 0 j = k 0 := rfl

/-- An earlier coefficient of the next order: the old one plus the new reflection coefficient times the old
    coefficients read backwards. -/
theorem stepUp_succ_of_le (k : ℕ → α) {i j : ℕ} (h : j ≤ i) :
    stepUp k (i + 1) j = stepUp k i j + k (i + 1) * stepUp k i (i - j) := by
  rw [stepUp, if_pos h]

/-- The last coefficient of the next order is the new reflection coefficient. -/
theorem stepUp_succ_of_lt (k : ℕ → α) {i j : ℕ} (h : i < j) : stepUp k (i + 1) j = k (i + 1) := by
  rw [stepUp, if_neg (by omega)]

/-- The recursion reads only the reflection coefficients up to its order. -/
theorem stepUp_congr {k k' : ℕ → α} {i : ℕ} (h : ∀ n ≤ i, k n = k' n) (j : ℕ) : stepUp k i j = stepUp k' i j := by
  induction i generalizing j with
  | zero => simpa using h 0 le_rfl
  | succ i ih =>
    have ih' := ih (fun n hn => h n (by omega))
    by_cases hj : j ≤ i
    · rw [stepUp_succ_of_le k hj, stepUp_succ_of_le k' hj, ih' j, ih' (i - j), h (i + 1) le_rfl]
    · rw [stepUp_succ_of_lt k (by omega), stepUp_succ_of_lt k' (by omega), h (i + 1) le_rfl]

end StepUp
-- ==== Proof.LibStepUpPlanes.lean ====
/-
  The step-up recursion carried out on whole planes.

  An array `x` of shape [N, a, b] is read as N planes of shape [a, b]: plane `i` holds reflection coefficient `i`
  of every position (p, q). The recursion of LibStepUp.lean is run with planes for numbers: entrywise sum and
  entrywise product. Read at a position (p, q) the result is the scalar recursion on that position's own
  coefficients `x (0, p, q), x (1, p, q), …`; no position reads another.

  Also here: the two lemmas that fold a straight-line body's slices and sums of products into the recursion;
  the two axis rotations that carry a [a, b, N] block to planes and back, read at an index, and a
  plane stored as a [1, a, b] slab.
-/
import Idealize.ShloMosaic.Lib.ValueIdx
import Idealize.ShloMosaic.Lib.ValueLayout
import Idealize.ShloMosaic.Lib.Pipeline.Value
import proofs.«109384_j79336635892365_2_alg».proof.Proof.LibStepUp

noncomputable section

namespace StepUp.Planes

open Idealize.ShloMosaic Idealize.ShloMosaic.ValueIdx StepUp

variable {N a b : ℕ}

/-- Plane `i` is a block of the array: offset (i, 0, 0), extent (1, a, b). -/
theorem plane_slices (i : ℕ) (hi : i < N) :
    (⟨3, ![N, a, b]⟩ : Shape).Slices ![i, 0, 0] ⟨3, ![1, a, b]⟩ :=
  ⟨rfl, fun d => by
    match d with
    | ⟨0, _⟩ => show i + 1 ≤ N; omega
    | ⟨1, _⟩ => show 0 + a ≤ a; omega
    | ⟨2, _⟩ => show 0 + b ≤ b; omega⟩

/-- A [1, a, b] block has the elements of an [a, b] plane, in the same order. -/
theorem slab_casts : (⟨3, ![1, a, b]⟩ : Shape).ShapeCasts ⟨2, ![a, b]⟩ := by
  show (⟨2, ![a, b]⟩ : Shape).numel = (⟨3, ![1, a, b]⟩ : Shape).numel
  simp [Shape.numel, Fin.prod_univ_succ]

/-- Plane `i` of the array (the zero plane past the end, a harmless default). -/
def plane (x : FVec Ideal (⟨3, ![N, a, b]⟩ : Shape) .f32) (i : ℕ) : FVec Ideal (⟨2, ![a, b]⟩ : Shape) .f32 :=
  if hi : i < N then
    shapeCast ⟨2, ![a, b]⟩ (extractStridedSlice ⟨3, ![1, a, b]⟩ ![i, 0, 0] x (plane_slices i hi)) slab_casts
  else fun _ => 0

/-- Plane `i` at (p, q) is the array at (i, p, q). -/
theorem plane_apply (x : FVec Ideal (⟨3, ![N, a, b]⟩ : Shape) .f32) (i : ℕ) (hi : i < N) (p : Fin a) (q : Fin b) :
    plane x i (ix2 p q) = x (ix3 ⟨i, hi⟩ p q) := by
  unfold plane
  rw [dif_pos hi, shapeCast_1ab_ab_apply]
  refine extractStridedSlice_apply _ x _ _ _ fun d => ?_
  match d with
  | ⟨0, _⟩ => show i = i + 0; omega
  | ⟨1, _⟩ => show p.val = 0 + p.val; omega
  | ⟨2, _⟩ => show q.val = 0 + q.val; omega

/-- The recursion on planes: order 0 is plane 0; order `i + 1` keeps plane `i + 1` as its last coefficient and
    replaces coefficient `j ≤ i` by itself plus plane `i + 1` times the old coefficients read backwards. -/
def stepUpPlanes (x : FVec Ideal (⟨3, ![N, a, b]⟩ : Shape) .f32) : ℕ → ℕ → FVec Ideal (⟨2, ![a, b]⟩ : Shape) .f32
  | 0, _ => plane x 0
  | i + 1, j =>
    if j ≤ i then addf (stepUpPlanes x i j) (mulf (plane x (i + 1)) (stepUpPlanes x i (i - j))) else plane x (i + 1)

/-- The reflection coefficients of position (p, q): the array's column over the leading axis. -/
def coeffs (x : FVec Ideal (⟨3, ![N, a, b]⟩ : Shape) .f32) (p : Fin a) (q : Fin b) : ℕ → EReal :=
  fun n => if h : n < N then x (ix3 ⟨n, h⟩ p q) else 0

/-- Read at a position, the recursion on planes is the scalar recursion on that position's coefficients. -/
theorem stepUpPlanes_apply (x : FVec Ideal (⟨3, ![N, a, b]⟩ : Shape) .f32) (p : Fin a) (q : Fin b) :
    ∀ (i : ℕ), i < N → ∀ j : ℕ, stepUpPlanes x i j (ix2 p q) = stepUp (coeffs x p q) i j
  | 0, h0, j => by
    rw [stepUpPlanes, stepUp_zero, plane_apply x 0 h0]
    unfold coeffs; rw [dif_pos h0]
  | i + 1, hi, j => by
    have ih := stepUpPlanes_apply x p q i (by omega)
    have hk : plane x (i + 1) (ix2 p q) = coeffs x p q (i + 1) := by
      rw [plane_apply x (i + 1) hi]; unfold coeffs; rw [dif_pos hi]
    by_cases hj : j ≤ i
    · rw [stepUpPlanes, if_pos hj, stepUp_succ_of_le _ hj, addf_apply, mulf_apply, ih j, ih (i - j), hk]
    · rw [stepUpPlanes, if_neg hj, stepUp_succ_of_lt _ (by omega), hk]

/-- An [a, b] plane stored as a [1, a, b] slab reads the plane. -/
theorem slab_apply (v : FVec Ideal (⟨2, ![a, b]⟩ : Shape) .f32)
    (h : (⟨2, ![a, b]⟩ : Shape).ShapeCasts ⟨3, ![1, a, b]⟩) (p : Fin a) (q : Fin b) :
    shapeCast ⟨3, ![1, a, b]⟩ v h (ix3 (0 : Fin 1) p q) = v (ix2 p q) :=
  shapeCast_ab_1ab_apply v h 0 p q

/-- The rotation [a, b, N] → [N, a, b] (the coefficient axis brought to the front) at an index. -/
theorem toPlanes_apply {α : Type} (v : (⟨3, ![a, b, N]⟩ : Shape).Idx → α)
    (h : (⟨3, ![a, b, N]⟩ : Shape).Transposes [2, 0, 1] ⟨3, ![N, a, b]⟩) (n : Fin N) (p : Fin a) (q : Fin b) :
    transpose ⟨3, ![N, a, b]⟩ [2, 0, 1] v h (ix3 n p q) = v (ix3 p q n) := by
  refine transpose_apply _ v h _ _ fun d => ?_
  match d with
  | ⟨0, _⟩ => rfl
  | ⟨1, _⟩ => rfl
  | ⟨2, _⟩ => rfl

/-- The rotation back, [N, a, b] → [a, b, N], at an index. -/
theorem ofPlanes_apply {α : Type} (w : (⟨3, ![N, a, b]⟩ : Shape).Idx → α)
    (h : (⟨3, ![N, a, b]⟩ : Shape).Transposes [1, 2, 0] ⟨3, ![a, b, N]⟩) (p : Fin a) (q : Fin b) (n : Fin N) :
    transpose ⟨3, ![a, b, N]⟩ [1, 2, 0] w h (ix3 p q n) = w (ix3 n p q) := by
  refine transpose_apply _ w h _ _ fun d => ?_
  match d with
  | ⟨0, _⟩ => rfl
  | ⟨1, _⟩ => rfl
  | ⟨2, _⟩ => rfl

/-! ## Folding a body's arithmetic into the recursion

A program that carries the recursion out spells each plane as a slice cast to [a, b] and each new coefficient as
one sum of a product. The two lemmas below read those spellings as coefficients of the recursion on planes, so a
long straight-line body folds, innermost value first, into `stepUpPlanes` without ever being expanded. -/

/-- A plane sliced out of the array and cast to [a, b] is the last coefficient of its own order. -/
theorem plane_fold (X : FVec Ideal (⟨3, ![N, a, b]⟩ : Shape) .f32) (i : ℕ) (hi : i < N)
    (h1 : (⟨3, ![N, a, b]⟩ : Shape).Slices ![i, 0, 0] ⟨3, ![1, a, b]⟩)
    (h2 : (⟨3, ![1, a, b]⟩ : Shape).ShapeCasts ⟨2, ![a, b]⟩) :
    shapeCast ⟨2, ![a, b]⟩ (extractStridedSlice ⟨3, ![1, a, b]⟩ ![i, 0, 0] X h1) h2 = stepUpPlanes X i i := by
  have hp : stepUpPlanes X i i = plane X i := by
    cases i with
    | zero => rfl
    | succ k => rw [stepUpPlanes, if_neg (by omega)]
  rw [hp]; unfold plane; rw [dif_pos hi]

/-- One fused multiply-add of the recursion: coefficient `j` of the next order. -/
theorem fma_fold (X : FVec Ideal (⟨3, ![N, a, b]⟩ : Shape) .f32) (i j j' : ℕ) (h : j + j' = i) :
    addf (stepUpPlanes X i j) (mulf (stepUpPlanes X (i + 1) (i + 1)) (stepUpPlanes X i j')) = stepUpPlanes X (i + 1) j := by
  have hj : j ≤ i := by omega
  have hj' : j' = i - j := by omega
  have hp : stepUpPlanes X (i + 1) (i + 1) = plane X (i + 1) := by rw [stepUpPlanes, if_neg (by omega)]
  subst hj'
  rw [hp]; conv_rhs => rw [stepUpPlanes, if_pos hj]

end StepUp.Planes

end
-- ==== Proof.LibSlabStack.lean ====
/-
  An [n, a, b] buffer filled slab by slab.

  Slab k of the [n, a, b] index set is the unit-stride rectangle at offset (k, 0, 0) of extent (1, a, b): the
  indices whose first coordinate is k. Its own index (0, i, j) sits at (k, i, j) of the buffer.

  A list of pieces (a rectangle with a payload over the rectangle's own indices) is read at an index y as the
  payload of the FIRST piece whose rectangle holds y. If every piece of the list is some slab k carrying the
  payload w k, and some piece holds y = (k, i, j), then the list reads w k at (0, i, j): the first piece that
  holds y is a slab k' with k' = (first coordinate of y) = k, whatever its place in the list, and however many
  times a slab occurs.
-/
import Idealize.ShloMosaic.Lib.Pipeline.FrameBody
import Idealize.ShloMosaic.Lib.Pipeline.Value
import Idealize.ShloMosaic.Lib.ValueIdx

noncomputable section

namespace Cert.Lib.SlabStack

open Idealize.ShloMosaic Idealize.ShloMosaic.ValueIdx

variable {n a b : ℕ}

/-- Slab k fits in the buffer: k + 1 ≤ n on the first axis, and the whole extent on the other two. -/
theorem slab_inb (n a b : ℕ) (k : Fin n) :
    ∀ d : Fin (⟨3, ![n, a, b]⟩ : Shape).rank,
      (![k.val, 0, 0] : Fin 3 → ℕ) d + (⟨3, ![1, a, b]⟩ : Shape).size d ≤ (⟨3, ![n, a, b]⟩ : Shape).size d := by
  intro d
  match d with
  | ⟨0, _⟩ => show k.val + 1 ≤ n; exact k.isLt
  | ⟨1, _⟩ => show 0 + a ≤ a; omega
  | ⟨2, _⟩ => show 0 + b ≤ b; omega

/-- Slab k of an [n, a, b] buffer: offset (k, 0, 0), extent (1, a, b), unit strides. -/
abbrev slab (n a b : ℕ) (k : Fin n) : Rect (⟨3, ![n, a, b]⟩ : Shape) :=
  Rect.unit ![k.val, 0, 0] (⟨3, ![1, a, b]⟩ : Shape).size (slab_inb n a b k)

/-- The same rectangle written with any evidence that it fits is slab k. -/
theorem slab_eq (k : Fin n)
    (h : ∀ d, (![k.val, 0, 0] : Fin 3 → ℕ) d + (⟨3, ![1, a, b]⟩ : Shape).size d ≤ (⟨3, ![n, a, b]⟩ : Shape).size d) :
    Rect.unit (s := (⟨3, ![n, a, b]⟩ : Shape)) ![k.val, 0, 0] (⟨3, ![1, a, b]⟩ : Shape).size h = slab n a b k := rfl

/-- The same with the slab's number a natural below n (a literal, say). -/
theorem slab_eq_nat (k : ℕ) (hk : k < n)
    (h : ∀ d, (![k, 0, 0] : Fin 3 → ℕ) d + (⟨3, ![1, a, b]⟩ : Shape).size d ≤ (⟨3, ![n, a, b]⟩ : Shape).size d) :
    Rect.unit (s := (⟨3, ![n, a, b]⟩ : Shape)) ![k, 0, 0] (⟨3, ![1, a, b]⟩ : Shape).size h = slab n a b ⟨k, hk⟩ := rfl

/-- An index lies in slab k exactly when its first coordinate is k. -/
theorem mem_slab_iff (k : Fin n) (y : (⟨3, ![n, a, b]⟩ : Shape).Idx) :
    y ∈ (slab n a b k).set ↔ (y 0).val = k.val := by
  rw [Rect.mem_set_unit]
  constructor
  · intro h
    have h0 := h 0
    have h0' : k.val ≤ (y 0).val ∧ (y 0).val < k.val + 1 := h0
    omega
  · intro h d
    match d with
    | ⟨0, _⟩ =>
      show k.val ≤ (y 0).val ∧ (y 0).val < k.val + 1
      omega
    | ⟨1, _⟩ =>
      have := (y 1).isLt
      show 0 ≤ (y 1).val ∧ (y 1).val < 0 + a
      have h1 : (y 1).val < a := this
      omega
    | ⟨2, _⟩ =>
      have := (y 2).isLt
      show 0 ≤ (y 2).val ∧ (y 2).val < 0 + b
      have h2 : (y 2).val < b := this
      omega

/-- Slab k's own index (0, i, j) sits at (k, i, j) of the buffer. -/
theorem slab_emb (k : Fin n) (i : Fin a) (j : Fin b) :
    (slab n a b k).emb (ix3 (0 : Fin 1) i j) = ix3 k i j := by
  funext d
  apply Fin.ext
  match d with
  | ⟨0, _⟩ => show k.val + 1 * 0 = k.val; omega
  | ⟨1, _⟩ => show 0 + 1 * i.val = i.val; omega
  | ⟨2, _⟩ => show 0 + 1 * j.val = j.val; omega

/-- A list holding slab k for every k below n covers the buffer: an index lies in the slab of its first
    coordinate. -/
theorem cover_of_slabs {Val : EltTy → Type} {e : EltTy} (L : List (View.Piece Val (⟨3, ![n, a, b]⟩ : Shape) e))
    (h : ∀ k : Fin n, ∃ p ∈ L, p.1 = slab n a b k) (y : (⟨3, ![n, a, b]⟩ : Shape).Idx) :
    ∃ p ∈ L, y ∈ p.1.set := by
  obtain ⟨p, hp, hp1⟩ := h (y 0)
  refine ⟨p, hp, ?_⟩
  rw [hp1]
  exact (mem_slab_iff (y 0) y).2 rfl

variable {Val : EltTy → Type} {e : EltTy} [∀ e, Nonempty (Val e)]

/-- A list of slabs, slab k carrying w k, read at an index (k, i, j) that some piece of it holds: w k at
    (0, i, j). -/
theorem canon_of_slabs_at (w : Fin n → (⟨3, ![1, a, b]⟩ : Shape).Idx → Val e)
    (k : Fin n) (i : Fin a) (j : Fin b) :
    ∀ (L : List (View.Piece Val (⟨3, ![n, a, b]⟩ : Shape) e)),
      (∀ p ∈ L, ∃ k' : Fin n, p = (⟨slab n a b k', w k'⟩ : View.Piece Val (⟨3, ![n, a, b]⟩ : Shape) e)) →
      (∃ p ∈ L, ix3 k i j ∈ p.1.set) → View.canon L (ix3 k i j) = w k (ix3 (0 : Fin 1) i j)
  | [], _, hcov => by obtain ⟨_, hm, _⟩ := hcov; exact absurd hm List.not_mem_nil
  | p :: L, hall, hcov => by
    obtain ⟨k', rfl⟩ := hall p List.mem_cons_self
    by_cases hy : ix3 k i j ∈ (slab n a b k').set
    · have hk : k' = k := Fin.ext ((mem_slab_iff k' (ix3 k i j)).1 hy).symm
      subst hk
      have := View.canon_cons_emb (slab n a b k') (w k') L (ix3 (0 : Fin 1) i j)
      rw [slab_emb] at this
      exact this
    · rw [View.canon_cons_of_not_mem (⟨slab n a b k', w k'⟩ : View.Piece Val (⟨3, ![n, a, b]⟩ : Shape) e) L hy]
      refine canon_of_slabs_at w k i j L (fun p hp => hall p (List.mem_cons_of_mem _ hp)) ?_
      obtain ⟨p, hp, hyp⟩ := hcov
      rcases List.mem_cons.1 hp with rfl | hp
      · exact absurd hyp hy
      · exact ⟨p, hp, hyp⟩

/-- The same when the pieces cover the whole buffer. -/
theorem canon_of_slabs (w : Fin n → (⟨3, ![1, a, b]⟩ : Shape).Idx → Val e)
    (L : List (View.Piece Val (⟨3, ![n, a, b]⟩ : Shape) e))
    (hall : ∀ p ∈ L, ∃ k : Fin n, p = (⟨slab n a b k, w k⟩ : View.Piece Val (⟨3, ![n, a, b]⟩ : Shape) e))
    (hcov : ∀ y, ∃ p ∈ L, y ∈ p.1.set) (k : Fin n) (i : Fin a) (j : Fin b) :
    View.canon L (ix3 k i j) = w k (ix3 (0 : Fin 1) i j) :=
  canon_of_slabs_at w k i j L hall (hcov _)

/-- The whole contents such a covering list leaves, index by index. -/
theorem canon_of_slabs_apply (w : Fin n → (⟨3, ![1, a, b]⟩ : Shape).Idx → Val e)
    (L : List (View.Piece Val (⟨3, ![n, a, b]⟩ : Shape) e))
    (hall : ∀ p ∈ L, ∃ k : Fin n, p = (⟨slab n a b k, w k⟩ : View.Piece Val (⟨3, ![n, a, b]⟩ : Shape) e))
    (hcov : ∀ y, ∃ p ∈ L, y ∈ p.1.set) (y : (⟨3, ![n, a, b]⟩ : Shape).Idx) :
    View.canon L y = w (y 0) (ix3 (0 : Fin 1) (y 1) (y 2)) := by
  exact (congrArg (View.canon L) (eq_ix3 y)).trans (canon_of_slabs w L hall hcov (y 0) (y 1) (y 2))

variable {sig : RefSig} {κ : Kind} {sp : Space}

/-- What any view of the buffer reads at (k, i, j) after the slab writes, over any earlier contents. -/
theorem read_writes_of_slabs (v : View sig κ sp (⟨3, ![n, a, b]⟩ : Shape) e) (f : v.ty.Contents Val)
    (w : Fin n → (⟨3, ![1, a, b]⟩ : Shape).Idx → Val e)
    (L : List (View.Piece Val (⟨3, ![n, a, b]⟩ : Shape) e))
    (hall : ∀ p ∈ L, ∃ k : Fin n, p = (⟨slab n a b k, w k⟩ : View.Piece Val (⟨3, ![n, a, b]⟩ : Shape) e))
    (hcov : ∀ y, ∃ p ∈ L, y ∈ p.1.set) (k : Fin n) (i : Fin a) (j : Fin b) :
    v.read Val (v.writes Val f L) (ix3 k i j) = w k (ix3 (0 : Fin 1) i j) := by
  rw [View.read_writes_eq_canon v f L hcov]
  exact canon_of_slabs w L hall hcov k i j

end Cert.Lib.SlabStack

end
-- ==== Proof.LibBandStack.lean ====
/-
  An [a, K * w, b] buffer filled band by band along its middle axis.

  Band k is the unit-stride rectangle at offset (0, k * w, 0) of extent (a, w, b): the indices whose middle
  coordinate lies in [k * w, k * w + w). Its own index (i, t, j) sits at (i, k * w + t, j) of the buffer.

  A list of pieces is read at an index as the payload of the first piece whose rectangle holds the index. If
  every piece of the list is some band k carrying the payload W k, and some piece holds (i, k * w + t, j),
  the list reads W k at (i, t, j): the first piece holding that index is a band k' with
  k' * w ≤ k * w + t < k' * w + w, so k' = k, wherever it stands in the list.

  Also: a list of pieces followed by another reads, at an index the first list covers, as the first list alone.
-/
import Idealize.ShloMosaic.Lib.Pipeline.FrameBody
import Idealize.ShloMosaic.Lib.Pipeline.Value
import Idealize.ShloMosaic.Lib.ValueIdx

noncomputable section

namespace Cert.Lib.BandStack

open Idealize.ShloMosaic Idealize.ShloMosaic.ValueIdx

variable {K w a b : ℕ}

/-- Band k fits in the buffer: (k + 1) * w ≤ K * w on the middle axis, the whole extent on the other two. -/
theorem band_inb (K w a b : ℕ) (k : Fin K) :
    ∀ d : Fin (⟨3, ![a, K * w, b]⟩ : Shape).rank,
      (![0, k.val * w, 0] : Fin 3 → ℕ) d + (⟨3, ![a, w, b]⟩ : Shape).size d ≤ (⟨3, ![a, K * w, b]⟩ : Shape).size d := by
  intro d
  match d with
  | ⟨0, _⟩ => show 0 + a ≤ a; omega
  | ⟨1, _⟩ =>
    show k.val * w + w ≤ K * w
    have h : (k.val + 1) * w ≤ K * w := Nat.mul_le_mul_right w k.isLt
    rw [Nat.succ_mul] at h; exact h
  | ⟨2, _⟩ => show 0 + b ≤ b; omega

/-- Band k of an [a, K * w, b] buffer: offset (0, k * w, 0), extent (a, w, b), unit strides. -/
abbrev band (K w a b : ℕ) (k : Fin K) : Rect (⟨3, ![a, K * w, b]⟩ : Shape) :=
  Rect.unit ![0, k.val * w, 0] (⟨3, ![a, w, b]⟩ : Shape).size (band_inb K w a b k)

/-- An index lies in band k exactly when its middle coordinate lies in [k * w, k * w + w). -/
theorem mem_band_iff (k : Fin K) (y : (⟨3, ![a, K * w, b]⟩ : Shape).Idx) :
    y ∈ (band K w a b k).set ↔ k.val * w ≤ (y 1).val ∧ (y 1).val < k.val * w + w := by
  rw [Rect.mem_set_unit]
  constructor
  · intro h
    exact h 1
  · intro h d
    match d with
    | ⟨0, _⟩ =>
      have h0 : (y 0).val < a := (y 0).isLt
      show 0 ≤ (y 0).val ∧ (y 0).val < 0 + a
      omega
    | ⟨1, _⟩ => exact h
    | ⟨2, _⟩ =>
      have h2 : (y 2).val < b := (y 2).isLt
      show 0 ≤ (y 2).val ∧ (y 2).val < 0 + b
      omega

/-- The middle coordinate k * w + t of band k's entry t is inside the buffer. -/
theorem band_coord_lt (k : Fin K) (t : Fin w) : k.val * w + t.val < K * w := by
  have h : (k.val + 1) * w ≤ K * w := Nat.mul_le_mul_right w k.isLt
  rw [Nat.succ_mul] at h
  have := t.isLt
  omega

/-- Band k's own index (i, t, j) sits at (i, k * w + t, j) of the buffer. -/
theorem band_emb (k : Fin K) (i : Fin a) (t : Fin w) (j : Fin b) :
    (band K w a b k).emb (ix3 i t j) = ix3 i ⟨k.val * w + t.val, band_coord_lt k t⟩ j := by
  funext d
  apply Fin.ext
  match d with
  | ⟨0, _⟩ => show 0 + 1 * i.val = i.val; omega
  | ⟨1, _⟩ => show k.val * w + 1 * t.val = k.val * w + t.val; omega
  | ⟨2, _⟩ => show 0 + 1 * j.val = j.val; omega

/-- Two bands that share a middle coordinate are one band. -/
theorem band_unique (k k' : Fin K) (t : Fin w) (h : k'.val * w ≤ k.val * w + t.val) (h' : k.val * w + t.val < k'.val * w + w) :
    k' = k := by
  apply Fin.ext
  by_contra hne
  rcases Nat.lt_or_gt_of_ne hne with hlt | hgt
  · have h1 : (k'.val + 1) * w ≤ k.val * w := Nat.mul_le_mul_right w hlt
    rw [Nat.succ_mul] at h1
    omega
  · have h1 : (k.val + 1) * w ≤ k'.val * w := Nat.mul_le_mul_right w hgt
    rw [Nat.succ_mul] at h1
    have := t.isLt
    omega

variable {Val : EltTy → Type} {e : EltTy} [∀ e, Nonempty (Val e)]

/-- A list of bands, band k carrying W k, read at an index (i, k * w + t, j) that some piece of it holds: W k at
    (i, t, j). -/
theorem canon_of_bands_at (W : Fin K → (⟨3, ![a, w, b]⟩ : Shape).Idx → Val e)
    (k : Fin K) (i : Fin a) (t : Fin w) (j : Fin b) :
    ∀ (L : List (View.Piece Val (⟨3, ![a, K * w, b]⟩ : Shape) e)),
      (∀ p ∈ L, ∃ k' : Fin K, p = (⟨band K w a b k', W k'⟩ : View.Piece Val (⟨3, ![a, K * w, b]⟩ : Shape) e)) →
      (∃ p ∈ L, ix3 i ⟨k.val * w + t.val, band_coord_lt k t⟩ j ∈ p.1.set) →
      View.canon L (ix3 i ⟨k.val * w + t.val, band_coord_lt k t⟩ j) = W k (ix3 i t j)
  | [], _, hcov => by obtain ⟨_, hm, _⟩ := hcov; exact absurd hm List.not_mem_nil
  | p :: L, hall, hcov => by
    obtain ⟨k', rfl⟩ := hall p List.mem_cons_self
    by_cases hy : ix3 i ⟨k.val * w + t.val, band_coord_lt k t⟩ j ∈ (band K w a b k').set
    · have hm := (mem_band_iff k' _).1 hy
      have hk : k' = k := band_unique k k' t hm.1 hm.2
      subst hk
      have := View.canon_cons_emb (band K w a b k') (W k') L (ix3 i t j)
      rw [band_emb] at this
      exact this
    · rw [View.canon_cons_of_not_mem (⟨band K w a b k', W k'⟩ : View.Piece Val (⟨3, ![a, K * w, b]⟩ : Shape) e) L hy]
      refine canon_of_bands_at W k i t j L (fun p hp => hall p (List.mem_cons_of_mem _ hp)) ?_
      obtain ⟨p, hp, hyp⟩ := hcov
      rcases List.mem_cons.1 hp with rfl | hp
      · exact absurd hyp hy
      · exact ⟨p, hp, hyp⟩

/-- A list of pieces followed by another reads, at an index the first list covers, as the first list alone. -/
theorem canon_append_of_mem {s : Shape} :
    ∀ (L₁ L₂ : List (View.Piece Val s e)) (y : s.Idx), (∃ p ∈ L₁, y ∈ p.1.set) →
      View.canon (L₁ ++ L₂) y = View.canon L₁ y
  | [], _, _, h => by obtain ⟨_, hm, _⟩ := h; exact absurd hm List.not_mem_nil
  | p :: L₁, L₂, y, h => by
    by_cases hy : y ∈ p.1.set
    · obtain ⟨r, v⟩ := p
      obtain ⟨x, rfl⟩ : ∃ x, r.emb x = y := r.exists_idx_of_mem hy
      show View.canon (⟨r, v⟩ :: (L₁ ++ L₂)) (r.emb x) = View.canon (⟨r, v⟩ :: L₁) (r.emb x)
      rw [View.canon_cons_emb, View.canon_cons_emb]
    · show View.canon (p :: (L₁ ++ L₂)) y = View.canon (p :: L₁) y
      rw [View.canon_cons_of_not_mem p _ hy, View.canon_cons_of_not_mem p _ hy]
      refine canon_append_of_mem L₁ L₂ y ?_
      obtain ⟨p', hp', hyp⟩ := h
      rcases List.mem_cons.1 hp' with rfl | hp'
      · exact absurd hyp hy
      · exact ⟨p', hp', hyp⟩

end Cert.Lib.BandStack

end
-- ==== Proof.KernelPieces.lean ====
/-
  What the kernel body leaves in its output block, as a list of stores.

  The body walks its [8, 2048, 16] input block in sixteen bands of 128 positions. For each band it brings the
  coefficient axis to the front (sixteen planes of shape [8, 128]), runs the step-up recursion on whole planes —
  each new coefficient one sum of a product of planes —, stores the sixteen order-15 coefficient planes in a
  [16, 8, 128] scratch, reads the scratch back whole, puts the coefficient axis last again and stores the band of
  the output block. Its straight-line text (some two thousand sums of products) folds into that description:
  `pieces_eq`.
-/
import proofs.«109384_j79336635892365_2_alg».proof.Proof.Gen.KernelIdeal.Value
import proofs.«109384_j79336635892365_2_alg».proof.Proof.LibStepUpPlanes
import proofs.«109384_j79336635892365_2_alg».proof.Proof.LibSlabStack
import proofs.«109384_j79336635892365_2_alg».proof.Proof.LibBandStack
import Lean

set_option maxRecDepth 16384

open Lean Meta Elab Tactic in
/-- The names a term mentions, directly or through one another's definitions, among the body's named intermediate
    values and payloads. -/
def collectRunNames (e : Expr) : MetaM (Array Name) := do
  let isRun (n : Name) : Bool :=
    let s := n.toString
    s.startsWith "Cert.KernelIdeal.Gen.k0_pay" || s.startsWith "Cert.KernelIdeal.Gen.kernelRun0_A.sl."
  let env ← getEnv
  let mut seen : NameSet := {}
  let mut todo : List Name := (e.getUsedConstants.filter isRun).toList
  let mut out : Array Name := #[]
  while !todo.isEmpty do
    let n := todo.head!
    todo := todo.tail!
    if seen.contains n then continue
    seen := seen.insert n
    out := out.push n
    if let some ci := env.find? n then
      if let some v := ci.value? then
        for m in v.getUsedConstants do
          if isRun m && !seen.contains m then todo := m :: todo
  return out

open Lean Meta Elab Tactic in
/-- Unfold every such name in the goal, folding each slice and each sum of a product into the recursion on planes as
    it appears (innermost values first, so no term is ever expanded into the full expression tree). -/
elab "fold_run_values" : tactic => do
  let g ← getMainGoal
  let names ← collectRunNames (← instantiateMVars (← g.getType))
  let ids := names.map fun n => (mkIdent n : Term)
  evalTactic (← `(tactic| simp (disch := omega) only [$[$ids:term],*, StepUp.Planes.plane_fold, StepUp.Planes.fma_fold]))

noncomputable section

namespace Cert.KernelIdeal.Body

open Cert.KernelIdeal Cert.KernelIdeal.Gen
open Idealize.ShloMosaic Idealize.ShloMosaic.TcCoe Idealize.SL.Sem Idealize.ShloMosaic.ValueIdx StepUp StepUp.Planes
open Cert.Lib.SlabStack Cert.Lib.BandStack

/-- The numbers 15, 14, …, 0: the order in which a list of stores, newest first, names sixteen consecutive stores. -/
def newestFirst : List (Fin 16) := [15, 14, 13, 12, 11, 10, 9, 8, 7, 6, 5, 4, 3, 2, 1, 0]

theorem mem_newestFirst : ∀ k : Fin 16, k ∈ newestFirst := by decide

/-- Row `n` of the order-15 coefficients, as the [1, 8, 128] slab the body stores in its scratch. -/
def rows (X : FVec Ideal S16x8x128 .f32) (n : Fin 16) : FVec Ideal S1x8x128 .f32 :=
  shapeCast S1x8x128 (stepUpPlanes X 15 n.val) (by decide)

/-- Sixteen slabs, newest first: slab `k` carries `w k`. -/
def slabList (w : Fin 16 → S1x8x128.Idx → EReal) : List (View.Piece (Elt Ideal) S16x8x128 .f32) :=
  newestFirst.map fun k => ⟨slab 16 8 128 k, w k⟩

variable (arg2 : Memref sig .tc .vmem S8x2048x16 .f32) (harg2 : arg2.IsWhole) (arg4 : Memref sig .tc .vmem S16x8x128 .f32)
  (x0 : Vec Ideal S8x2048x16 .f32)

/-- Band `k` of the staged input block: 128 consecutive positions along the middle axis. -/
def chunkIn (k : Fin 16) : Vec Ideal S8x128x16 .f32 :=
  View.readAt (Elt Ideal) arg2.view (band 16 128 8 16 k).toLoadRect (harg2.unread x0)

/-- The same with the coefficient axis brought to the front: sixteen planes of shape [8, 128]. -/
def chunkPlanes (k : Fin 16) : FVec Ideal S16x8x128 .f32 :=
  transpose S16x8x128 [2, 0, 1] (chunkIn arg2 harg2 x0 k) (by decide)

/-- The scratch's stores after `n` bands, newest first: each band stores its sixteen rows over the older ones. -/
def scratchAfter : ℕ → List (View.Piece (Elt Ideal) S16x8x128 .f32)
  | 0 => []
  | n + 1 => if h : n < 16 then slabList (rows (chunkPlanes arg2 harg2 x0 ⟨n, h⟩)) ++ scratchAfter n else scratchAfter n

/-- The scratch read back whole after band `k`'s stores. -/
def scratchRead (k : Fin 16) : Vec Ideal S16x8x128 .f32 :=
  arg4.view.readCov (scratchAfter arg2 harg2 x0 (k.val + 1))
    (Rect.unit (s := S16x8x128) ![0, 0, 0] S16x8x128.size (by decide)).toLoadRect

/-- What band `k` stores in the output block: that, with the coefficient axis put last again. -/
def chunkOut (k : Fin 16) : FVec Ideal S8x128x16 .f32 :=
  transpose S8x128x16 [1, 2, 0] (scratchRead arg2 harg2 arg4 x0 k) (by decide)

/-- The output block's stores, newest first: band `k` carries `chunkOut k`. -/
def outPieces : List (View.Piece (Elt Ideal) S8x2048x16 .f32) :=
  newestFirst.map fun k => ⟨band 16 128 8 16 k, chunkOut arg2 harg2 arg4 x0 k⟩

set_option maxHeartbeats 20000000 in
/-- The pieces the body's run leaves in the output block are those: every fused multiply-add of the body is one
    coefficient of the recursion on planes, and every plane it slices out is a reflection coefficient. -/
theorem pieces_eq (c : Dev nD) (i : grid0.Coords) (arg3 : Memref sig .tc .vmem S8x2048x16 .f32) (harg3 : arg3.IsWhole) (harg4 : arg4.IsWhole) :
    (kernelRun0_A (F := Ideal) c i arg2 harg2 arg3 harg3 arg4 harg4 x0).1 = outPieces arg2 harg2 arg4 x0 := by
  unfold kernelRun0_A
  dsimp only
  fold_run_values
  rfl

end Cert.KernelIdeal.Body

end
-- ==== Proof.Spec.lean ====
/-
  The claim's one function: the predictor coefficients of every position.

  An array of shape [A, B, N] holds, at each position (a, b), N reflection coefficients along its last axis. The
  result holds at (a, b, j) coefficient `j` of the order-15 predictor the step-up recursion (LibStepUp.lean) builds
  from them. Both programs are shown to end with this function of the argument array.
-/
import Idealize.ShloMosaic.Lib.ValueIdx
import proofs.«109384_j79336635892365_2_alg».proof.Proof.LibStepUp

noncomputable section

namespace StepUp

open Idealize.ShloMosaic Idealize.ShloMosaic.ValueIdx

/-- The reflection coefficients an array of shape [A, B, N] holds at position (a, b): its entries along the last
    axis (zero past the end, a harmless default). -/
def arrayCoeffs {A B N : ℕ} (rc : (⟨3, ![A, B, N]⟩ : Shape).Idx → EReal) (a : Fin A) (b : Fin B) : ℕ → EReal :=
  fun n => if h : n < N then rc (ix3 a b ⟨n, h⟩) else 0

/-- THE RESULT as one function of the argument array: at (a, b, j), coefficient `j` of the order-15 predictor built
    from the reflection coefficients the array holds at (a, b). -/
def predictor {A B N : ℕ} (rc : (⟨3, ![A, B, N]⟩ : Shape).Idx → EReal) : (⟨3, ![A, B, N]⟩ : Shape).Idx → EReal :=
  fun i => stepUp (arrayCoeffs rc (i 0) (i 1)) 15 (i 2).val

end StepUp

end
-- ==== Proof.KernelBlock.lean ====
/-
  The kernel's output block after the body, read at an index.

  The output block's stores are sixteen bands; band k holds the scratch read back after band k's sixteen rows were
  stored over whatever was there. Reading through the bands, the read-back, the slabs and the rotation, entry
  (p, 128 k + q, n) of the output block is coefficient n of the order-15 predictor built from the sixteen reflection
  coefficients the input block holds at (p, 128 k + q): no position reads another.
-/
import proofs.«109384_j79336635892365_2_alg».proof.Proof.KernelPieces
import proofs.«109384_j79336635892365_2_alg».proof.Proof.Spec
import Idealize.ShloMosaic.Lib.WholeRead

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx StepUp StepUp.Planes
open Cert.Lib.SlabStack Cert.Lib.BandStack

variable (arg2 : Memref sig .tc .vmem S8x2048x16 .f32) (harg2 : arg2.IsWhole) (arg4 : Memref sig .tc .vmem S16x8x128 .f32)
  (x0 : Vec Ideal S8x2048x16 .f32)

/-- Position `q` of band `k` along the block's middle axis. -/
def pos (k : Fin 16) (q : Fin 128) : Fin 2048 := ⟨k.val * 128 + q.val, by have := k.isLt; have := q.isLt; omega⟩

theorem slabList_all (w : Fin 16 → S1x8x128.Idx → EReal) :
    ∀ pc ∈ slabList w, ∃ k : Fin 16, pc = (⟨slab 16 8 128 k, w k⟩ : View.Piece (Elt Ideal) S16x8x128 .f32) := by
  intro pc hp
  obtain ⟨k, -, rfl⟩ := List.mem_map.1 hp
  exact ⟨k, rfl⟩

theorem slabList_cover (w : Fin 16 → S1x8x128.Idx → EReal) (y : S16x8x128.Idx) : ∃ pc ∈ slabList w, y ∈ pc.1.set :=
  cover_of_slabs (slabList w) (fun k => ⟨_, List.mem_map.2 ⟨k, mem_newestFirst k, rfl⟩, rfl⟩) y

/-- Sixteen fresh slabs over any older stores read, at (n, p, q), slab `n`'s payload at (0, p, q). -/
theorem canon_slabList_append (w : Fin 16 → S1x8x128.Idx → EReal) (L₂ : List (View.Piece (Elt Ideal) S16x8x128 .f32))
    (n : Fin 16) (p : Fin 8) (q : Fin 128) :
    View.canon (slabList w ++ L₂) (ix3 n p q) = w n (ix3 (0 : Fin 1) p q) := by
  rw [canon_append_of_mem _ _ _ (slabList_cover w _)]
  exact canon_of_slabs w (slabList w) (slabList_all w) (slabList_cover w) n p q

/-- A load of the whole scratch reads each index at itself. -/
theorem whole_idx (y : S16x8x128.Idx) :
    (Rect.unit (s := S16x8x128) ![0, 0, 0] S16x8x128.size (by decide)).toLoadRect.idx y = y := by
  funext d
  apply Fin.ext
  match d with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- Band `k` of the staged block at (p, q, n) is the block at (p, 128 k + q, n). -/
theorem chunkIn_apply (k : Fin 16) (p : Fin 8) (q : Fin 128) (n : Fin 16) :
    chunkIn arg2 harg2 x0 k (ix3 p q n) = x0 (ix3 p (pos k q) n) := by
  unfold chunkIn
  rw [Memref.IsWhole.readAt_unread]
  exact congrArg x0 (band_emb k p q n)

/-- The planes of band `k` hold, at (p, q), the reflection coefficients of block position (p, 128 k + q). -/
theorem coeffs_chunkPlanes (k : Fin 16) (p : Fin 8) (q : Fin 128) :
    coeffs (chunkPlanes arg2 harg2 x0 k) p q = arrayCoeffs x0 p (pos k q) := by
  funext m
  unfold coeffs arrayCoeffs
  by_cases h : m < 16
  · rw [dif_pos h, dif_pos h]
    unfold chunkPlanes
    exact (toPlanes_apply _ _ ⟨m, h⟩ p q).trans (chunkIn_apply arg2 harg2 x0 k p q ⟨m, h⟩)
  · rw [dif_neg h, dif_neg h]

/-- What band `k` stores, at (p, q, n): coefficient `n` of the order-15 predictor of block position (p, 128 k + q). -/
theorem chunkOut_apply (k : Fin 16) (p : Fin 8) (q : Fin 128) (n : Fin 16) :
    chunkOut arg2 harg2 arg4 x0 k (ix3 p q n) = stepUp (arrayCoeffs x0 p (pos k q)) 15 n.val := by
  unfold chunkOut
  refine (ofPlanes_apply _ _ p q n).trans ?_
  unfold scratchRead
  rw [View.readCov_eq_canon']
  beta_reduce
  rw [whole_idx, scratchAfter, dif_pos k.isLt, canon_slabList_append]
  unfold rows
  rw [slab_apply, stepUpPlanes_apply _ p q 15 (by omega), coeffs_chunkPlanes]

theorem outPieces_all : ∀ pc ∈ outPieces arg2 harg2 arg4 x0,
    ∃ k : Fin 16, pc = (⟨band 16 128 8 16 k, chunkOut arg2 harg2 arg4 x0 k⟩ : View.Piece (Elt Ideal) S8x2048x16 .f32) := by
  intro pc hp
  obtain ⟨k, -, rfl⟩ := List.mem_map.1 hp
  exact ⟨k, rfl⟩

/-- The output block's stores read, at (p, 128 k + q, n), band `k`'s payload at (p, q, n). -/
theorem canon_outPieces (k : Fin 16) (p : Fin 8) (q : Fin 128) (n : Fin 16) :
    View.canon (outPieces arg2 harg2 arg4 x0) (ix3 p (pos k q) n) = chunkOut arg2 harg2 arg4 x0 k (ix3 p q n) := by
  refine canon_of_bands_at (K := 16) (w := 128) (a := 8) (b := 16) (chunkOut arg2 harg2 arg4 x0) k p q n
    (outPieces arg2 harg2 arg4 x0) (outPieces_all arg2 harg2 arg4 x0) ?_
  refine ⟨⟨band 16 128 8 16 k, chunkOut arg2 harg2 arg4 x0 k⟩, List.mem_map.2 ⟨k, mem_newestFirst k, rfl⟩, ?_⟩
  refine (mem_band_iff k _).2 ⟨?_, ?_⟩
  · show k.val * 128 ≤ k.val * 128 + q.val; omega
  · show k.val * 128 + q.val < k.val * 128 + 128; have := q.isLt; omega

/-- THE OUTPUT BLOCK after the body, at (p, T, n): coefficient `n` of the order-15 predictor built from the
    sixteen reflection coefficients the input block holds at (p, T). -/
theorem block_apply (c : Dev nD) (i : grid0.Coords) (arg3 : Memref sig .tc .vmem S8x2048x16 .f32) (harg3 : arg3.IsWhole)
    (harg4 : arg4.IsWhole) (p : Fin 8) (T : Fin 2048) (n : Fin 16) :
    out0_A_1 (F := Ideal) c i arg2 harg2 arg3 harg3 arg4 harg4 x0 (ix3 p T n) = stepUp (arrayCoeffs x0 p T) 15 n.val := by
  unfold out0_A_1
  rw [View.read_writes_junk_eq_canon, pieces_eq]
  obtain ⟨k, q, rfl⟩ : ∃ (k : Fin 16) (q : Fin 128), T = pos k q :=
    ⟨⟨T.val / 128, by have := T.isLt; omega⟩, ⟨T.val % 128, Nat.mod_lt _ (by omega)⟩, Fin.ext (by show T.val = T.val / 128 * 128 + T.val % 128; omega)⟩
  rw [canon_outPieces, chunkOut_apply]

end Cert.KernelIdeal.Body

end
-- ==== Proof.KernelArray.lean ====
/-
  The kernel's result array: the predictor of its argument array.

  Grid point (i, j) of the 32 × 4 grid stages block (i, j, 0) of the [256, 8192, 16] argument, of extent
  [8, 2048, 16], and writes back the same block of the result. The body's output block is, position by position,
  the order-15 predictor of the input block's own coefficients (KernelBlock.lean), and a block's position (p, T)
  is the array's position (8 i + p, 2048 j + T): so every point writes back its block of ONE whole-array
  function, the predictor of the argument, and the blocks cover the array.
-/
import proofs.«109384_j79336635892365_2_alg».proof.Proof.Gen.KernelIdeal.Value
import proofs.«109384_j79336635892365_2_alg».proof.Proof.KernelBlock
import proofs.«109384_j79336635892365_2_alg».proof.Proof.Spec

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx StepUp Cert.KernelIdeal.Body
open Idealize.ShloMosaic.Pipeline (Dat)

variable (m : (ℓ : Loc nD τ sig) → Buf (Elt Ideal) ℓ) (ρ : Dev nD → PrngReg)

/-- The two windows move together over the grid, block (i, j, 0) at point (i, j) of the 32 × 4 grid. -/
theorem idx_facts : ∀ t : Fin cfg0.N,
    win0_0.index t (0 : Fin 3) = win0_1.index t (0 : Fin 3) ∧ win0_0.index t (1 : Fin 3) = win0_1.index t (1 : Fin 3)
    ∧ win0_0.index t (2 : Fin 3) = 0 ∧ win0_1.index t (2 : Fin 3) = 0
    ∧ win0_1.index t (0 : Fin 3) ≤ 31 ∧ win0_1.index t (1 : Fin 3) ≤ 3 :=
  (by decide +kernel : ∀ t : Fin grid0.N, _)

/-- Every block of the array is some point's. -/
theorem idx_onto : ∀ (q0 : Fin 32) (q1 : Fin 4), ∃ t : Fin cfg0.N, win0_1.index t = ![q0.val, q1.val, 0] :=
  (by decide +kernel : ∀ (q0 : Fin 32) (q1 : Fin 4), ∃ t : Fin grid0.N, win0_1.index t = ![q0.val, q1.val, 0])

/-- The argument array. -/
abbrev rc (c : Dev nD) : S256x8192x16.Idx → EReal := m ((c : Thread nD τ).loc main_arg0)

/-- The input block at point `t`, at an index: the argument array at the block's placement of that index. -/
theorem iblk_apply (c : Dev nD) (t : Fin cfg0.N) (x : S8x2048x16.Idx) (k : S256x8192x16.Idx)
    (hk0 : (k 0).val = win0_0.index t (0 : Fin 3) * 8 + (x 0).val) (hk1 : (k 1).val = win0_0.index t (1 : Fin 3) * 2048 + (x 1).val)
    (hk2 : (k 2).val = win0_0.index t (2 : Fin 3) * 16 + (x 2).val) :
    (iblk m c 0 t : Vec Ideal S8x2048x16 .f32) x = rc m c k := by
  unfold iblk
  rw [View.read_apply]
  show V m c main_arg0 _ = m (c.tc.loc main_arg0) _
  unfold V
  congr 1
  funext a
  apply Fin.ext
  match a with
  | ⟨0, _⟩ => show win0_0.index t 0 * 8 + 1 * (x 0).val = (k 0).val; omega
  | ⟨1, _⟩ => show win0_0.index t 1 * 2048 + 1 * (x 1).val = (k 1).val; omega
  | ⟨2, _⟩ => show win0_0.index t 2 * 16 + 1 * (x 2).val = (k 2).val; omega

/-- The output block after the body at any index of the block. -/
theorem block_at (c : Dev nD) (i : grid0.Coords) (arg2 : Memref sig .tc .vmem S8x2048x16 .f32) (harg2 : arg2.IsWhole)
    (arg3 : Memref sig .tc .vmem S8x2048x16 .f32) (harg3 : arg3.IsWhole) (arg4 : Memref sig .tc .vmem S16x8x128 .f32)
    (harg4 : arg4.IsWhole) (x0 : Vec Ideal S8x2048x16 .f32) (j : S8x2048x16.Idx) :
    out0_A_1 (F := Ideal) c i arg2 harg2 arg3 harg3 arg4 harg4 x0 j = stepUp (arrayCoeffs x0 (j 0) (j 1)) 15 (j 2).val := by
  exact (congrArg (out0_A_1 (F := Ideal) c i arg2 harg2 arg3 harg3 arg4 harg4 x0) (eq_ix3 j)).trans
    (block_apply arg2 harg2 arg4 x0 c i arg3 harg3 harg4 (j 0) (j 1) (j 2))

/-- WHAT POINT `t` WRITES BACK is block `t` of the predictor of the argument array: a block's positions read only
    their own reflection coefficients, which sit at the same positions of the input block. -/
theorem flushed_eq (c : Dev nD) (t : Fin cfg0.N) :
    (dats m 0 c).flushed 1 t = ((cfg0.win 1).blk t).view.read (Elt Ideal) (predictor (rc m c)) := by
  rw [Cert.KernelIdeal.Value.flushed1_A]
  obtain ⟨e0, e1, e2, e3, e4, e5⟩ := idx_facts t
  funext j
  show out0_A_1 c (grid0.coords t) (ms0_0 t) (hs0_0 t) (ms0_1 t) (hs0_1 t) scM0_0 (Memref.isWhole_whole _) (iblk m c 0 t) j
    = predictor (rc m c) (((cfg0.win 1).blk t).view.emb j)
  rw [block_at]
  have h0 : ((((cfg0.win 1).blk t).view.emb j) 0).val = win0_1.index t (0 : Fin 3) * 8 + 1 * (j 0).val := rfl
  have h1 : ((((cfg0.win 1).blk t).view.emb j) 1).val = win0_1.index t (1 : Fin 3) * 2048 + 1 * (j 1).val := rfl
  have h2 : ((((cfg0.win 1).blk t).view.emb j) 2).val = win0_1.index t (2 : Fin 3) * 16 + 1 * (j 2).val := rfl
  unfold predictor
  have hj2 : ((((cfg0.win 1).blk t).view.emb j) 2).val = (j 2).val := by rw [h2, e3]; omega
  rw [hj2]
  refine stepUp_congr (fun n hn => ?_) _
  unfold arrayCoeffs
  have hn16 : n < 16 := by omega
  rw [dif_pos hn16, dif_pos hn16]
  refine iblk_apply m c t _ _ ?_ ?_ ?_
  · show ((((cfg0.win 1).blk t).view.emb j) 0).val = win0_0.index t (0 : Fin 3) * 8 + (j 0).val
    rw [h0, e0]; omega
  · show ((((cfg0.win 1).blk t).view.emb j) 1).val = win0_0.index t (1 : Fin 3) * 2048 + (j 1).val
    rw [h1, e1]; omega
  · show n = win0_0.index t (2 : Fin 3) * 16 + n
    rw [e2]; omega

/-- An index of the array is in point `t`'s block iff each coordinate is in the block's range on its axis. -/
theorem mem_blk (t : Fin cfg0.N) (i : S256x8192x16.Idx) :
    i ∈ ((cfg0.win 1).blk t).view.set ↔ ∀ a : Fin 3, win0_1.index t a * S8x2048x16.size a ≤ (i a).val ∧ (i a).val < win0_1.index t a * S8x2048x16.size a + S8x2048x16.size a := by
  show i ∈ ((View.whole main_v0).slice (win0_1.rect t)).set ↔ _
  rw [View.set_slice_whole, Rect.mem_set_unit]
  exact Iff.rfl

/-- The blocks cover the array: (a, b, ·) lies in block (a / 8, b / 2048, 0). -/
theorem cover (i : S256x8192x16.Idx) : ∃ t : Fin cfg0.N, (cfg0.win 1).flush t = true ∧ i ∈ ((cfg0.win 1).blk t).view.set := by
  have hi0 : (i 0).val < 256 := (i 0).isLt
  have hi1 : (i 1).val < 8192 := (i 1).isLt
  have hi2 : (i 2).val < 16 := (i 2).isLt
  obtain ⟨t, ht⟩ := idx_onto ⟨(i 0).val / 8, by omega⟩ ⟨(i 1).val / 2048, by omega⟩
  have q0 : win0_1.index t (0 : Fin 3) = (i 0).val / 8 := congrFun ht 0
  have q1 : win0_1.index t (1 : Fin 3) = (i 1).val / 2048 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 2048 ≤ (i 1).val ∧ (i 1).val < win0_1.index t (1 : Fin 3) * 2048 + 2048; omega
  | ⟨2, _⟩ => show win0_1.index t (2 : Fin 3) * 16 ≤ (i 2).val ∧ (i 2).val < win0_1.index t (2 : Fin 3) * 16 + 16; omega

/-- THE ARRAY after the run: the predictor of the argument array. -/
theorem final (c : Dev nD) : (dats m 0 c).arrAt 1 cfg0.N = predictor (rc m c) :=
  (dats m 0 c).arrAt_eq_of_cover 1 (predictor (rc m c)) (fun t _ => flushed_eq m c t) (cover)

/-- The kernel's run, read: the result array is the predictor of the argument array, which is left as it was. -/
theorem run : θ_run defs (onTc (τ := τ) (main (F := Ideal))) ⟨m, fun _ => 0, ρ⟩ fun r => ∀ c : Dev nD,
      r.2.mem ((c : Thread nD τ).loc main_v0) = predictor (rc m c)
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.ArrayValue

end
-- ==== Proof.RefStep.lean ====
/-
  One step of the reference's loop, read at an index.

  The reference holds the order-`n` coefficients as an array `L` of shape [256, 8192, n + 1] and the next
  reflection coefficient as a column `K` of shape [256, 8192, 1]. One trip of its loop forms
  `L + M * reverse L` along the last axis (`M` is `K` spread along that axis) and appends `K` as the new last
  entry. Read at (a, b, j) this is `L (a, b, j) + M (a, b, j) * L (a, b, n - j)` for `j ≤ n` and `K (a, b, 0)`
  for `j = n + 1`: exactly one step of the step-up recursion, at every extended real.
-/
import Idealize.ShloMosaic.Lib.ValueIdx
import Idealize.ShloMosaic.Lib.Pipeline.Value

noncomputable section

namespace RefStep

open Idealize.ShloMosaic Idealize.ShloMosaic.ValueIdx

/-- The shape [256, 8192, n] of the reference's intermediate arrays. -/
abbrev Sh (n : ℕ) : Shape := ⟨3, ![256, 8192, n]⟩

/-- Reversal along the last axis read at an index: entry `j` is the operand's entry `n - j`. -/
theorem reverse_apply {n : ℕ} (L : FVec Ideal (Sh (n + 1)) .f32) (a : Fin 256) (b : Fin 8192) (j : Fin (n + 1)) :
    Host.reverse [2] L (ix3 a b j) = L (ix3 a b ⟨n - j.val, by omega⟩) := by
  unfold Host.reverse
  refine congrArg L (funext fun d => ?_)
  match d with
  | ⟨0, _⟩ => rfl
  | ⟨1, _⟩ => rfl
  | ⟨2, _⟩ =>
    refine Fin.ext ?_
    show (Fin.rev j).val = n - j.val
    rw [Fin.val_rev]; omega

/-- The column spread along the last axis reads the column's one entry. -/
theorem spread_apply {n : ℕ} (K : FVec Ideal (Sh 1) .f32) (hb : (Sh 1).BroadcastsInDim (Sh (n + 1)) ![0, 1, 2])
    (a : Fin 256) (b : Fin 8192) (j : Fin (n + 1)) :
    broadcastInDim (Sh (n + 1)) ![0, 1, 2] hb K (ix3 a b j) = K (ix3 a b 0) := by
  refine broadcastInDim_apply _ hb K _ _ fun d => ?_
  match d with
  | ⟨0, _⟩ => rfl
  | ⟨1, _⟩ => rfl
  | ⟨2, _⟩ => rfl

/-- A slice of extent one along the last axis, at offset `o`, reads entry `o`. -/
theorem column_apply (x : FVec Ideal (Sh 16) .f32) (o : ℕ) (ho : o < 16) (off : Fin 3 → ℕ) (hoff : off = ![0, 0, o])
    (hs : (Sh 16).Slices off (Sh 1)) (a : Fin 256) (b : Fin 8192) :
    extractStridedSlice (Sh 1) off x hs (ix3 a b 0) = x (ix3 a b ⟨o, ho⟩) := by
  subst hoff
  refine extractStridedSlice_apply _ x hs _ _ fun d => ?_
  match d with
  | ⟨0, _⟩ => show a.val = 0 + a.val; omega
  | ⟨1, _⟩ => show b.val = 0 + b.val; omega
  | ⟨2, _⟩ => show o = o + 0; omega

/-- One trip of the reference's loop at an index. -/
theorem trip_apply {n : ℕ} (L M : FVec Ideal (Sh (n + 1)) .f32) (K : FVec Ideal (Sh 1) .f32)
    (hc : Shape.Concatenates [Sh (n + 1), Sh 1] (Sh (n + 2)) 2) (a : Fin 256) (b : Fin 8192) (j : Fin (n + 2)) :
    concatenate (Sh (n + 2)) 2 [⟨Sh (n + 1), addf L (mulf M (Host.reverse [2] L))⟩, ⟨Sh 1, K⟩] hc (ix3 a b j)
      = if h : j.val ≤ n then
          L (ix3 a b ⟨j.val, by omega⟩) + M (ix3 a b ⟨j.val, by omega⟩) * L (ix3 a b ⟨n - j.val, by omega⟩)
        else K (ix3 a b 0) := by
  by_cases h : j.val ≤ n
  · rw [dif_pos h]
    refine (concatenate_pair_apply_left (t := Sh (n + 2)) (s₁ := Sh (n + 1)) (s₂ := Sh 1) (2 : Fin 3) _ K hc (ix3 a b j) rfl (ix3 a b ⟨j.val, by omega⟩) fun d => ?_).trans ?_
    · match d with
      | ⟨0, _⟩ => rfl
      | ⟨1, _⟩ => rfl
      | ⟨2, _⟩ => rfl
    · rw [addf_apply, mulf_apply, reverse_apply]
  · rw [dif_neg h]
    refine concatenate_pair_apply_right (t := Sh (n + 2)) (s₁ := Sh (n + 1)) (s₂ := Sh 1) (2 : Fin 3) _ K hc (ix3 a b j) rfl rfl (ix3 a b 0) (fun d hd => ?_) ?_
    · match d with
      | ⟨0, _⟩ => rfl
      | ⟨1, _⟩ => rfl
      | ⟨2, _⟩ => exact absurd rfl hd
    · show (0 : ℕ) + (n + 1) = j.val
      have := j.isLt; omega

end RefStep

end
-- ==== Proof.RefRun.lean ====
/-
  What the reference computes, and its run.

  The reference keeps the order-`n` coefficients in an array of shape [256, 8192, n + 1], starting from the
  first reflection coefficient alone and running fifteen trips of its loop, six operations a trip: slice the next
  reflection coefficient out of the argument, reverse the old coefficients along the last axis, spread the new
  coefficient along that axis, multiply, add, append. Each trip is one step of the step-up recursion at every
  (a, b) (RefStep.lean). So the invariant "the argument is untouched and the array holds the order-`n`
  coefficients" passes from trip to trip, and after the fifteenth the result is the predictor of the argument.

  The run is stated trip by trip, each trip's six operations evaluated from a VARIABLE state: a state in which the
  earlier trips have been substituted grows twofold per trip (every array is read twice by the next trip), and is
  never formed here.
-/
import proofs.«109384_j79336635892365_2_alg».proof.Proof.Gen.ReferenceIdeal
import Idealize.ShloMosaic.Lib.StableHlo.Run
import proofs.«109384_j79336635892365_2_alg».proof.Proof.RefStep
import proofs.«109384_j79336635892365_2_alg».proof.Proof.LibStepUp
import proofs.«109384_j79336635892365_2_alg».proof.Proof.Spec

noncomputable section

namespace Cert.ReferenceIdeal.RefRun

open Cert.ReferenceIdeal Cert.ReferenceIdeal.Gen
open Idealize.ShloMosaic Idealize.ShloMosaic.TcCoe Idealize.SL.Sem Idealize.ShloMosaic.StableHlo
open Idealize.ShloMosaic.ValueIdx StepUp RefStep

/-- `L` holds the order-`n` coefficients of every position. -/
def IsOrder (rc : FVec Ideal (Sh 16) .f32) (n : ℕ) (L : FVec Ideal (Sh (n + 1)) .f32) : Prop :=
  ∀ (a : Fin 256) (b : Fin 8192) (j : Fin (n + 1)), L (ix3 a b j) = stepUp (arrayCoeffs rc a b) n j.val

/-- One trip of the loop takes the order-`n` coefficients to the order-`n + 1` ones. -/
theorem order_succ (rc : FVec Ideal (Sh 16) .f32) (n : ℕ) (hn : n + 1 < 16)
    (L : FVec Ideal (Sh (n + 1)) .f32) (hL : IsOrder rc n L) (M : FVec Ideal (Sh (n + 1)) .f32) (K : FVec Ideal (Sh 1) .f32)
    (hK : ∀ a b, K (ix3 a b 0) = rc (ix3 a b ⟨n + 1, hn⟩))
    (hM : ∀ a b j, M (ix3 a b j) = K (ix3 a b 0))
    (hc : Shape.Concatenates [Sh (n + 1), Sh 1] (Sh (n + 2)) 2) :
    IsOrder rc (n + 1) (concatenate (Sh (n + 2)) 2 [⟨Sh (n + 1), addf L (mulf M (Host.reverse [2] L))⟩, ⟨Sh 1, K⟩] hc) := by
  intro a b j
  have hk : arrayCoeffs rc a b (n + 1) = rc (ix3 a b ⟨n + 1, hn⟩) := by unfold arrayCoeffs; rw [dif_pos hn]
  rw [RefStep.trip_apply]
  by_cases h : j.val ≤ n
  · rw [dif_pos h, stepUp_succ_of_le _ h, hL, hL, hM, hK, hk]
  · rw [dif_neg h, stepUp_succ_of_lt _ (by omega), hK, hk]

variable {F : FTy → Type} [FloatOps F]

/-- The reference's ninety operations, in order. -/
abbrev ops : List (HloOp τ sig (Elt F)) :=
  [ unary main_arg0 main_v0 ((extractStridedSlice S256x8192x1 ![0, 0, 0] · slices_S256x8192x16_S256x8192x1_0_0_0) : (⟨S256x8192x16, .f32⟩ : BufTy).Contents (Elt F) → (⟨S256x8192x1, .f32⟩ : BufTy).Contents (Elt F)),
    unary main_arg0 main_v1 ((extractStridedSlice S256x8192x1 ![0, 0, 1] · slices_S256x8192x16_S256x8192x1_0_0_1) : (⟨S256x8192x16, .f32⟩ : BufTy).Contents (Elt F) → (⟨S256x8192x1, .f32⟩ : BufTy).Contents (Elt F)),
    unary main_v0 main_v2 (Host.reverse [2] : (⟨S256x8192x1, .f32⟩ : BufTy).Contents (Elt F) → (⟨S256x8192x1, .f32⟩ : BufTy).Contents (Elt F)),
    binary main_v1 main_v2 main_v3 (mulf : (⟨S256x8192x1, .f32⟩ : BufTy).Contents (Elt F) → (⟨S256x8192x1, .f32⟩ : BufTy).Contents (Elt F) → (⟨S256x8192x1, .f32⟩ : BufTy).Contents (Elt F)),
    binary main_v0 main_v3 main_v4 (addf : (⟨S256x8192x1, .f32⟩ : BufTy).Contents (Elt F) → (⟨S256x8192x1, .f32⟩ : BufTy).Contents (Elt F) → (⟨S256x8192x1, .f32⟩ : BufTy).Contents (Elt F)),
    binary main_v4 main_v1 main_v5 ((fun a b => concatenate S256x8192x2 2 [⟨S256x8192x1, a⟩, ⟨S256x8192x1, b⟩] concatenates_S256x8192x1_S256x8192x1_S256x8192x2_d2) : (⟨S256x8192x1, .f32⟩ : BufTy).Contents (Elt F) → (⟨S256x8192x1, .f32⟩ : BufTy).Contents (Elt F) → (⟨S256x8192x2, .f32⟩ : BufTy).Contents (Elt F)),
    unary main_arg0 main_v6 ((extractStridedSlice S256x8192x1 ![0, 0, 2] · slices_S256x8192x16_S256x8192x1_0_0_2) : (⟨S256x8192x16, .f32⟩ : BufTy).Contents (Elt F) → (⟨S256x8192x1, .f32⟩ : BufTy).Contents (Elt F)),
    unary main_v5 main_v7 (Host.reverse [2] : (⟨S256x8192x2, .f32⟩ : BufTy).Contents (Elt F) → (⟨S256x8192x2, .f32⟩ : BufTy).Contents (Elt F)),
    unary main_v6 main_v8 (broadcastInDim S256x8192x2 ![0, 1, 2] bcast_S256x8192x1_S256x8192x2_0_1_2 : (⟨S256x8192x1, .f32⟩ : BufTy).Contents (Elt F) → (⟨S256x8192x2, .f32⟩ : BufTy).Contents (Elt F)),
    binary main_v8 main_v7 main_v9 (mulf : (⟨S256x8192x2, .f32⟩ : BufTy).Contents (Elt F) → (⟨S256x8192x2, .f32⟩ : BufTy).Contents (Elt F) → (⟨S256x8192x2, .f32⟩ : BufTy).Contents (Elt F)),
    binary main_v5 main_v9 main_v10 (addf : (⟨S256x8192x2, .f32⟩ : BufTy).Contents (Elt F) → (⟨S256x8192x2, .f32⟩ : BufTy).Contents (Elt F) → (⟨S256x8192x2, .f32⟩ : BufTy).Contents (Elt F)),
    binary main_v10 main_v6 main_v11 ((fun a b => concatenate S256x8192x3 2 [⟨S256x8192x2, a⟩, ⟨S256x8192x1, b⟩] concatenates_S256x8192x2_S256x8192x1_S256x8192x3_d2) : (⟨S256x8192x2, .f32⟩ : BufTy).Contents (Elt F) → (⟨S256x8192x1, .f32⟩ : BufTy).Contents (Elt F) → (⟨S256x8192x3, .f32⟩ : BufTy).Contents (Elt F)),
    unary main_arg0 main_v12 ((extractStridedSlice S256x8192x1 ![0, 0, 3] · slices_S256x8192x16_S256x8192x1_0_0_3) : (⟨S256x8192x16, .f32⟩ : BufTy).Contents (Elt F) → (⟨S256x8192x1, .f32⟩ : BufTy).Contents (Elt F)),
    unary main_v11 main_v13 (Host.reverse [2] : (⟨S256x8192x3, .f32⟩ : BufTy).Contents (Elt F) → (⟨S256x8192x3, .f32⟩ : BufTy).Contents (Elt F)),
    unary main_v12 main_v14 (broadcastInDim S256x8192x3 ![0, 1, 2] bcast_S256x8192x1_S256x8192x3_0_1_2 : (⟨S256x8192x1, .f32⟩ : BufTy).Contents (Elt F) → (⟨S256x8192x3, .f32⟩ : BufTy).Contents (Elt F)),
    binary main_v14 main_v13 main_v15 (mulf : (⟨S256x8192x3, .f32⟩ : BufTy).Contents (Elt F) → (⟨S256x8192x3, .f32⟩ : BufTy).Contents (Elt F) → (⟨S256x8192x3, .f32⟩ : BufTy).Contents (Elt F)),
    binary main_v11 main_v15 main_v16 (addf : (⟨S256x8192x3, .f32⟩ : BufTy).Contents (Elt F) → (⟨S256x8192x3, .f32⟩ : BufTy).Contents (Elt F) → (⟨S256x8192x3, .f32⟩ : BufTy).Contents (Elt F)),
    binary main_v16 main_v12 main_v17 ((fun a b => concatenate S256x8192x4 2 [⟨S256x8192x3, a⟩, ⟨S256x8192x1, b⟩] concatenates_S256x8192x3_S256x8192x1_S256x8192x4_d2) : (⟨S256x8192x3, .f32⟩ : BufTy).Contents (Elt F) → (⟨S256x8192x1, .f32⟩ : BufTy).Contents (Elt F) → (⟨S256x8192x4, .f32⟩ : BufTy).Contents (Elt F)),
    unary main_arg0 main_v18 ((extractStridedSlice S256x8192x1 ![0, 0, 4] · slices_S256x8192x16_S256x8192x1_0_0_4) : (⟨S256x8192x16, .f32⟩ : BufTy).Contents (Elt F) → (⟨S256x8192x1, .f32⟩ : BufTy).Contents (Elt F)),
    unary main_v17 main_v19 (Host.reverse [2] : (⟨S256x8192x4, .f32⟩ : BufTy).Contents (Elt F) → (⟨S256x8192x4, .f32⟩ : BufTy).Contents (Elt F)),
    unary main_v18 main_v20 (broadcastInDim S256x8192x4 ![0, 1, 2] bcast_S256x8192x1_S256x8192x4_0_1_2 : (⟨S256x8192x1, .f32⟩ : BufTy).Contents (Elt F) → (⟨S256x8192x4, .f32⟩ : BufTy).Contents (Elt F)),
    binary main_v20 main_v19 main_v21 (mulf : (⟨S256x8192x4, .f32⟩ : BufTy).Contents (Elt F) → (⟨S256x8192x4, .f32⟩ : BufTy).Contents (Elt F) → (⟨S256x8192x4, .f32⟩ : BufTy).Contents (Elt F)),
    binary main_v17 main_v21 main_v22 (addf : (⟨S256x8192x4, .f32⟩ : BufTy).Contents (Elt F) → (⟨S256x8192x4, .f32⟩ : BufTy).Contents (Elt F) → (⟨S256x8192x4, .f32⟩ : BufTy).Contents (Elt F)),
    binary main_v22 main_v18 main_v23 ((fun a b => concatenate S256x8192x5 2 [⟨S256x8192x4, a⟩, ⟨S256x8192x1, b⟩] concatenates_S256x8192x4_S256x8192x1_S256x8192x5_d2) : (⟨S256x8192x4, .f32⟩ : BufTy).Contents (Elt F) → (⟨S256x8192x1, .f32⟩ : BufTy).Contents (Elt F) → (⟨S256x8192x5, .f32⟩ : BufTy).Contents (Elt F)),
    unary main_arg0 main_v24 ((extractStridedSlice S256x8192x1 ![0, 0, 5] · slices_S256x8192x16_S256x8192x1_0_0_5) : (⟨S256x8192x16, .f32⟩ : BufTy).Contents (Elt F) → (⟨S256x8192x1, .f32⟩ : BufTy).Contents (Elt F)),
    unary main_v23 main_v25 (Host.reverse [2] : (⟨S256x8192x5, .f32⟩ : BufTy).Contents (Elt F) → (⟨S256x8192x5, .f32⟩ : BufTy).Contents (Elt F)),
    unary main_v24 main_v26 (broadcastInDim S256x8192x5 ![0, 1, 2] bcast_S256x8192x1_S256x8192x5_0_1_2 : (⟨S256x8192x1, .f32⟩ : BufTy).Contents (Elt F) → (⟨S256x8192x5, .f32⟩ : BufTy).Contents (Elt F)),
    binary main_v26 main_v25 main_v27 (mulf : (⟨S256x8192x5, .f32⟩ : BufTy).Contents (Elt F) → (⟨S256x8192x5, .f32⟩ : BufTy).Contents (Elt F) → (⟨S256x8192x5, .f32⟩ : BufTy).Contents (Elt F)),
    binary main_v23 main_v27 main_v28 (addf : (⟨S256x8192x5, .f32⟩ : BufTy).Contents (Elt F) → (⟨S256x8192x5, .f32⟩ : BufTy).Contents (Elt F) → (⟨S256x8192x5, .f32⟩ : BufTy).Contents (Elt F)),
    binary main_v28 main_v24 main_v29 ((fun a b => concatenate S256x8192x6 2 [⟨S256x8192x5, a⟩, ⟨S256x8192x1, b⟩] concatenates_S256x8192x5_S256x8192x1_S256x8192x6_d2) : (⟨S256x8192x5, .f32⟩ : BufTy).Contents (Elt F) → (⟨S256x8192x1, .f32⟩ : BufTy).Contents (Elt F) → (⟨S256x8192x6, .f32⟩ : BufTy).Contents (Elt F)),
    unary main_arg0 main_v30 ((extractStridedSlice S256x8192x1 ![0, 0, 6] · slices_S256x8192x16_S256x8192x1_0_0_6) : (⟨S256x8192x16, .f32⟩ : BufTy).Contents (Elt F) → (⟨S256x8192x1, .f32⟩ : BufTy).Contents (Elt F)),
    unary main_v29 main_v31 (Host.reverse [2] : (⟨S256x8192x6, .f32⟩ : BufTy).Contents (Elt F) → (⟨S256x8192x6, .f32⟩ : BufTy).Contents (Elt F)),
    unary main_v30 main_v32 (broadcastInDim S256x8192x6 ![0, 1, 2] bcast_S256x8192x1_S256x8192x6_0_1_2 : (⟨S256x8192x1, .f32⟩ : BufTy).Contents (Elt F) → (⟨S256x8192x6, .f32⟩ : BufTy).Contents (Elt F)),
    binary main_v32 main_v31 main_v33 (mulf : (⟨S256x8192x6, .f32⟩ : BufTy).Contents (Elt F) → (⟨S256x8192x6, .f32⟩ : BufTy).Contents (Elt F) → (⟨S256x8192x6, .f32⟩ : BufTy).Contents (Elt F)),
    binary main_v29 main_v33 main_v34 (addf : (⟨S256x8192x6, .f32⟩ : BufTy).Contents (Elt F) → (⟨S256x8192x6, .f32⟩ : BufTy).Contents (Elt F) → (⟨S256x8192x6, .f32⟩ : BufTy).Contents (Elt F)),
    binary main_v34 main_v30 main_v35 ((fun a b => concatenate S256x8192x7 2 [⟨S256x8192x6, a⟩, ⟨S256x8192x1, b⟩] concatenates_S256x8192x6_S256x8192x1_S256x8192x7_d2) : (⟨S256x8192x6, .f32⟩ : BufTy).Contents (Elt F) → (⟨S256x8192x1, .f32⟩ : BufTy).Contents (Elt F) → (⟨S256x8192x7, .f32⟩ : BufTy).Contents (Elt F)),
    unary main_arg0 main_v36 ((extractStridedSlice S256x8192x1 ![0, 0, 7] · slices_S256x8192x16_S256x8192x1_0_0_7) : (⟨S256x8192x16, .f32⟩ : BufTy).Contents (Elt F) → (⟨S256x8192x1, .f32⟩ : BufTy).Contents (Elt F)),
    unary main_v35 main_v37 (Host.reverse [2] : (⟨S256x8192x7, .f32⟩ : BufTy).Contents (Elt F) → (⟨S256x8192x7, .f32⟩ : BufTy).Contents (Elt F)),
    unary main_v36 main_v38 (broadcastInDim S256x8192x7 ![0, 1, 2] bcast_S256x8192x1_S256x8192x7_0_1_2 : (⟨S256x8192x1, .f32⟩ : BufTy).Contents (Elt F) → (⟨S256x8192x7, .f32⟩ : BufTy).Contents (Elt F)),
    binary main_v38 main_v37 main_v39 (mulf : (⟨S256x8192x7, .f32⟩ : BufTy).Contents (Elt F) → (⟨S256x8192x7, .f32⟩ : BufTy).Contents (Elt F) → (⟨S256x8192x7, .f32⟩ : BufTy).Contents (Elt F)),
    binary main_v35 main_v39 main_v40 (addf : (⟨S256x8192x7, .f32⟩ : BufTy).Contents (Elt F) → (⟨S256x8192x7, .f32⟩ : BufTy).Contents (Elt F) → (⟨S256x8192x7, .f32⟩ : BufTy).Contents (Elt F)),
    binary main_v40 main_v36 main_v41 ((fun a b => concatenate S256x8192x8 2 [⟨S256x8192x7, a⟩, ⟨S256x8192x1, b⟩] concatenates_S256x8192x7_S256x8192x1_S256x8192x8_d2) : (⟨S256x8192x7, .f32⟩ : BufTy).Contents (Elt F) → (⟨S256x8192x1, .f32⟩ : BufTy).Contents (Elt F) → (⟨S256x8192x8, .f32⟩ : BufTy).Contents (Elt F)),
    unary main_arg0 main_v42 ((extractStridedSlice S256x8192x1 ![0, 0, 8] · slices_S256x8192x16_S256x8192x1_0_0_8) : (⟨S256x8192x16, .f32⟩ : BufTy).Contents (Elt F) → (⟨S256x8192x1, .f32⟩ : BufTy).Contents (Elt F)),
    unary main_v41 main_v43 (Host.reverse [2] : (⟨S256x8192x8, .f32⟩ : BufTy).Contents (Elt F) → (⟨S256x8192x8, .f32⟩ : BufTy).Contents (Elt F)),
    unary main_v42 main_v44 (broadcastInDim S256x8192x8 ![0, 1, 2] bcast_S256x8192x1_S256x8192x8_0_1_2 : (⟨S256x8192x1, .f32⟩ : BufTy).Contents (Elt F) → (⟨S256x8192x8, .f32⟩ : BufTy).Contents (Elt F)),
    binary main_v44 main_v43 main_v45 (mulf : (⟨S256x8192x8, .f32⟩ : BufTy).Contents (Elt F) → (⟨S256x8192x8, .f32⟩ : BufTy).Contents (Elt F) → (⟨S256x8192x8, .f32⟩ : BufTy).Contents (Elt F)),
    binary main_v41 main_v45 main_v46 (addf : (⟨S256x8192x8, .f32⟩ : BufTy).Contents (Elt F) → (⟨S256x8192x8, .f32⟩ : BufTy).Contents (Elt F) → (⟨S256x8192x8, .f32⟩ : BufTy).Contents (Elt F)),
    binary main_v46 main_v42 main_v47 ((fun a b => concatenate S256x8192x9 2 [⟨S256x8192x8, a⟩, ⟨S256x8192x1, b⟩] concatenates_S256x8192x8_S256x8192x1_S256x8192x9_d2) : (⟨S256x8192x8, .f32⟩ : BufTy).Contents (Elt F) → (⟨S256x8192x1, .f32⟩ : BufTy).Contents (Elt F) → (⟨S256x8192x9, .f32⟩ : BufTy).Contents (Elt F)),
    unary main_arg0 main_v48 ((extractStridedSlice S256x8192x1 ![0, 0, 9] · slices_S256x8192x16_S256x8192x1_0_0_9) : (⟨S256x8192x16, .f32⟩ : BufTy).Contents (Elt F) → (⟨S256x8192x1, .f32⟩ : BufTy).Contents (Elt F)),
    unary main_v47 main_v49 (Host.reverse [2] : (⟨S256x8192x9, .f32⟩ : BufTy).Contents (Elt F) → (⟨S256x8192x9, .f32⟩ : BufTy).Contents (Elt F)),
    unary main_v48 main_v50 (broadcastInDim S256x8192x9 ![0, 1, 2] bcast_S256x8192x1_S256x8192x9_0_1_2 : (⟨S256x8192x1, .f32⟩ : BufTy).Contents (Elt F) → (⟨S256x8192x9, .f32⟩ : BufTy).Contents (Elt F)),
    binary main_v50 main_v49 main_v51 (mulf : (⟨S256x8192x9, .f32⟩ : BufTy).Contents (Elt F) → (⟨S256x8192x9, .f32⟩ : BufTy).Contents (Elt F) → (⟨S256x8192x9, .f32⟩ : BufTy).Contents (Elt F)),
    binary main_v47 main_v51 main_v52 (addf : (⟨S256x8192x9, .f32⟩ : BufTy).Contents (Elt F) → (⟨S256x8192x9, .f32⟩ : BufTy).Contents (Elt F) → (⟨S256x8192x9, .f32⟩ : BufTy).Contents (Elt F)),
    binary main_v52 main_v48 main_v53 ((fun a b => concatenate S256x8192x10 2 [⟨S256x8192x9, a⟩, ⟨S256x8192x1, b⟩] concatenates_S256x8192x9_S256x8192x1_S256x8192x10_d2) : (⟨S256x8192x9, .f32⟩ : BufTy).Contents (Elt F) → (⟨S256x8192x1, .f32⟩ : BufTy).Contents (Elt F) → (⟨S256x8192x10, .f32⟩ : BufTy).Contents (Elt F)),
    unary main_arg0 main_v54 ((extractStridedSlice S256x8192x1 ![0, 0, 10] · slices_S256x8192x16_S256x8192x1_0_0_10) : (⟨S256x8192x16, .f32⟩ : BufTy).Contents (Elt F) → (⟨S256x8192x1, .f32⟩ : BufTy).Contents (Elt F)),
    unary main_v53 main_v55 (Host.reverse [2] : (⟨S256x8192x10, .f32⟩ : BufTy).Contents (Elt F) → (⟨S256x8192x10, .f32⟩ : BufTy).Contents (Elt F)),
    unary main_v54 main_v56 (broadcastInDim S256x8192x10 ![0, 1, 2] bcast_S256x8192x1_S256x8192x10_0_1_2 : (⟨S256x8192x1, .f32⟩ : BufTy).Contents (Elt F) → (⟨S256x8192x10, .f32⟩ : BufTy).Contents (Elt F)),
    binary main_v56 main_v55 main_v57 (mulf : (⟨S256x8192x10, .f32⟩ : BufTy).Contents (Elt F) → (⟨S256x8192x10, .f32⟩ : BufTy).Contents (Elt F) → (⟨S256x8192x10, .f32⟩ : BufTy).Contents (Elt F)),
    binary main_v53 main_v57 main_v58 (addf : (⟨S256x8192x10, .f32⟩ : BufTy).Contents (Elt F) → (⟨S256x8192x10, .f32⟩ : BufTy).Contents (Elt F) → (⟨S256x8192x10, .f32⟩ : BufTy).Contents (Elt F)),
    binary main_v58 main_v54 main_v59 ((fun a b => concatenate S256x8192x11 2 [⟨S256x8192x10, a⟩, ⟨S256x8192x1, b⟩] concatenates_S256x8192x10_S256x8192x1_S256x8192x11_d2) : (⟨S256x8192x10, .f32⟩ : BufTy).Contents (Elt F) → (⟨S256x8192x1, .f32⟩ : BufTy).Contents (Elt F) → (⟨S256x8192x11, .f32⟩ : BufTy).Contents (Elt F)),
    unary main_arg0 main_v60 ((extractStridedSlice S256x8192x1 ![0, 0, 11] · slices_S256x8192x16_S256x8192x1_0_0_11) : (⟨S256x8192x16, .f32⟩ : BufTy).Contents (Elt F) → (⟨S256x8192x1, .f32⟩ : BufTy).Contents (Elt F)),
    unary main_v59 main_v61 (Host.reverse [2] : (⟨S256x8192x11, .f32⟩ : BufTy).Contents (Elt F) → (⟨S256x8192x11, .f32⟩ : BufTy).Contents (Elt F)),
    unary main_v60 main_v62 (broadcastInDim S256x8192x11 ![0, 1, 2] bcast_S256x8192x1_S256x8192x11_0_1_2 : (⟨S256x8192x1, .f32⟩ : BufTy).Contents (Elt F) → (⟨S256x8192x11, .f32⟩ : BufTy).Contents (Elt F)),
    binary main_v62 main_v61 main_v63 (mulf : (⟨S256x8192x11, .f32⟩ : BufTy).Contents (Elt F) → (⟨S256x8192x11, .f32⟩ : BufTy).Contents (Elt F) → (⟨S256x8192x11, .f32⟩ : BufTy).Contents (Elt F)),
    binary main_v59 main_v63 main_v64 (addf : (⟨S256x8192x11, .f32⟩ : BufTy).Contents (Elt F) → (⟨S256x8192x11, .f32⟩ : BufTy).Contents (Elt F) → (⟨S256x8192x11, .f32⟩ : BufTy).Contents (Elt F)),
    binary main_v64 main_v60 main_v65 ((fun a b => concatenate S256x8192x12 2 [⟨S256x8192x11, a⟩, ⟨S256x8192x1, b⟩] concatenates_S256x8192x11_S256x8192x1_S256x8192x12_d2) : (⟨S256x8192x11, .f32⟩ : BufTy).Contents (Elt F) → (⟨S256x8192x1, .f32⟩ : BufTy).Contents (Elt F) → (⟨S256x8192x12, .f32⟩ : BufTy).Contents (Elt F)),
    unary main_arg0 main_v66 ((extractStridedSlice S256x8192x1 ![0, 0, 12] · slices_S256x8192x16_S256x8192x1_0_0_12) : (⟨S256x8192x16, .f32⟩ : BufTy).Contents (Elt F) → (⟨S256x8192x1, .f32⟩ : BufTy).Contents (Elt F)),
    unary main_v65 main_v67 (Host.reverse [2] : (⟨S256x8192x12, .f32⟩ : BufTy).Contents (Elt F) → (⟨S256x8192x12, .f32⟩ : BufTy).Contents (Elt F)),
    unary main_v66 main_v68 (broadcastInDim S256x8192x12 ![0, 1, 2] bcast_S256x8192x1_S256x8192x12_0_1_2 : (⟨S256x8192x1, .f32⟩ : BufTy).Contents (Elt F) → (⟨S256x8192x12, .f32⟩ : BufTy).Contents (Elt F)),
    binary main_v68 main_v67 main_v69 (mulf : (⟨S256x8192x12, .f32⟩ : BufTy).Contents (Elt F) → (⟨S256x8192x12, .f32⟩ : BufTy).Contents (Elt F) → (⟨S256x8192x12, .f32⟩ : BufTy).Contents (Elt F)),
    binary main_v65 main_v69 main_v70 (addf : (⟨S256x8192x12, .f32⟩ : BufTy).Contents (Elt F) → (⟨S256x8192x12, .f32⟩ : BufTy).Contents (Elt F) → (⟨S256x8192x12, .f32⟩ : BufTy).Contents (Elt F)),
    binary main_v70 main_v66 main_v71 ((fun a b => concatenate S256x8192x13 2 [⟨S256x8192x12, a⟩, ⟨S256x8192x1, b⟩] concatenates_S256x8192x12_S256x8192x1_S256x8192x13_d2) : (⟨S256x8192x12, .f32⟩ : BufTy).Contents (Elt F) → (⟨S256x8192x1, .f32⟩ : BufTy).Contents (Elt F) → (⟨S256x8192x13, .f32⟩ : BufTy).Contents (Elt F)),
    unary main_arg0 main_v72 ((extractStridedSlice S256x8192x1 ![0, 0, 13] · slices_S256x8192x16_S256x8192x1_0_0_13) : (⟨S256x8192x16, .f32⟩ : BufTy).Contents (Elt F) → (⟨S256x8192x1, .f32⟩ : BufTy).Contents (Elt F)),
    unary main_v71 main_v73 (Host.reverse [2] : (⟨S256x8192x13, .f32⟩ : BufTy).Contents (Elt F) → (⟨S256x8192x13, .f32⟩ : BufTy).Contents (Elt F)),
    unary main_v72 main_v74 (broadcastInDim S256x8192x13 ![0, 1, 2] bcast_S256x8192x1_S256x8192x13_0_1_2 : (⟨S256x8192x1, .f32⟩ : BufTy).Contents (Elt F) → (⟨S256x8192x13, .f32⟩ : BufTy).Contents (Elt F)),
    binary main_v74 main_v73 main_v75 (mulf : (⟨S256x8192x13, .f32⟩ : BufTy).Contents (Elt F) → (⟨S256x8192x13, .f32⟩ : BufTy).Contents (Elt F) → (⟨S256x8192x13, .f32⟩ : BufTy).Contents (Elt F)),
    binary main_v71 main_v75 main_v76 (addf : (⟨S256x8192x13, .f32⟩ : BufTy).Contents (Elt F) → (⟨S256x8192x13, .f32⟩ : BufTy).Contents (Elt F) → (⟨S256x8192x13, .f32⟩ : BufTy).Contents (Elt F)),
    binary main_v76 main_v72 main_v77 ((fun a b => concatenate S256x8192x14 2 [⟨S256x8192x13, a⟩, ⟨S256x8192x1, b⟩] concatenates_S256x8192x13_S256x8192x1_S256x8192x14_d2) : (⟨S256x8192x13, .f32⟩ : BufTy).Contents (Elt F) → (⟨S256x8192x1, .f32⟩ : BufTy).Contents (Elt F) → (⟨S256x8192x14, .f32⟩ : BufTy).Contents (Elt F)),
    unary main_arg0 main_v78 ((extractStridedSlice S256x8192x1 ![0, 0, 14] · slices_S256x8192x16_S256x8192x1_0_0_14) : (⟨S256x8192x16, .f32⟩ : BufTy).Contents (Elt F) → (⟨S256x8192x1, .f32⟩ : BufTy).Contents (Elt F)),
    unary main_v77 main_v79 (Host.reverse [2] : (⟨S256x8192x14, .f32⟩ : BufTy).Contents (Elt F) → (⟨S256x8192x14, .f32⟩ : BufTy).Contents (Elt F)),
    unary main_v78 main_v80 (broadcastInDim S256x8192x14 ![0, 1, 2] bcast_S256x8192x1_S256x8192x14_0_1_2 : (⟨S256x8192x1, .f32⟩ : BufTy).Contents (Elt F) → (⟨S256x8192x14, .f32⟩ : BufTy).Contents (Elt F)),
    binary main_v80 main_v79 main_v81 (mulf : (⟨S256x8192x14, .f32⟩ : BufTy).Contents (Elt F) → (⟨S256x8192x14, .f32⟩ : BufTy).Contents (Elt F) → (⟨S256x8192x14, .f32⟩ : BufTy).Contents (Elt F)),
    binary main_v77 main_v81 main_v82 (addf : (⟨S256x8192x14, .f32⟩ : BufTy).Contents (Elt F) → (⟨S256x8192x14, .f32⟩ : BufTy).Contents (Elt F) → (⟨S256x8192x14, .f32⟩ : BufTy).Contents (Elt F)),
    binary main_v82 main_v78 main_v83 ((fun a b => concatenate S256x8192x15 2 [⟨S256x8192x14, a⟩, ⟨S256x8192x1, b⟩] concatenates_S256x8192x14_S256x8192x1_S256x8192x15_d2) : (⟨S256x8192x14, .f32⟩ : BufTy).Contents (Elt F) → (⟨S256x8192x1, .f32⟩ : BufTy).Contents (Elt F) → (⟨S256x8192x15, .f32⟩ : BufTy).Contents (Elt F)),
    unary main_arg0 main_v84 ((extractStridedSlice S256x8192x1 ![0, 0, 15] · slices_S256x8192x16_S256x8192x1_0_0_15) : (⟨S256x8192x16, .f32⟩ : BufTy).Contents (Elt F) → (⟨S256x8192x1, .f32⟩ : BufTy).Contents (Elt F)),
    unary main_v83 main_v85 (Host.reverse [2] : (⟨S256x8192x15, .f32⟩ : BufTy).Contents (Elt F) → (⟨S256x8192x15, .f32⟩ : BufTy).Contents (Elt F)),
    unary main_v84 main_v86 (broadcastInDim S256x8192x15 ![0, 1, 2] bcast_S256x8192x1_S256x8192x15_0_1_2 : (⟨S256x8192x1, .f32⟩ : BufTy).Contents (Elt F) → (⟨S256x8192x15, .f32⟩ : BufTy).Contents (Elt F)),
    binary main_v86 main_v85 main_v87 (mulf : (⟨S256x8192x15, .f32⟩ : BufTy).Contents (Elt F) → (⟨S256x8192x15, .f32⟩ : BufTy).Contents (Elt F) → (⟨S256x8192x15, .f32⟩ : BufTy).Contents (Elt F)),
    binary main_v83 main_v87 main_v88 (addf : (⟨S256x8192x15, .f32⟩ : BufTy).Contents (Elt F) → (⟨S256x8192x15, .f32⟩ : BufTy).Contents (Elt F) → (⟨S256x8192x15, .f32⟩ : BufTy).Contents (Elt F)),
    binary main_v88 main_v84 main_v89 ((fun a b => concatenate S256x8192x16 2 [⟨S256x8192x15, a⟩, ⟨S256x8192x1, b⟩] concatenates_S256x8192x15_S256x8192x1_S256x8192x16_d2) : (⟨S256x8192x15, .f32⟩ : BufTy).Contents (Elt F) → (⟨S256x8192x1, .f32⟩ : BufTy).Contents (Elt F) → (⟨S256x8192x16, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., binary_bufs_sub .., binary_bufs_sub .., binary_bufs_sub ..⟩

/-- Trip 1 of the loop: the next reflection coefficient sliced out, the old coefficients reversed, the product, the
    sum, the new coefficient appended. -/
abbrev st0 : List (HloOp τ sig (Elt F)) :=
  [ unary main_arg0 main_v0 ((extractStridedSlice S256x8192x1 ![0, 0, 0] · slices_S256x8192x16_S256x8192x1_0_0_0) : (⟨S256x8192x16, .f32⟩ : BufTy).Contents (Elt F) → (⟨S256x8192x1, .f32⟩ : BufTy).Contents (Elt F)),
    unary main_arg0 main_v1 ((extractStridedSlice S256x8192x1 ![0, 0, 1] · slices_S256x8192x16_S256x8192x1_0_0_1) : (⟨S256x8192x16, .f32⟩ : BufTy).Contents (Elt F) → (⟨S256x8192x1, .f32⟩ : BufTy).Contents (Elt F)),
    unary main_v0 main_v2 (Host.reverse [2] : (⟨S256x8192x1, .f32⟩ : BufTy).Contents (Elt F) → (⟨S256x8192x1, .f32⟩ : BufTy).Contents (Elt F)),
    binary main_v1 main_v2 main_v3 (mulf : (⟨S256x8192x1, .f32⟩ : BufTy).Contents (Elt F) → (⟨S256x8192x1, .f32⟩ : BufTy).Contents (Elt F) → (⟨S256x8192x1, .f32⟩ : BufTy).Contents (Elt F)),
    binary main_v0 main_v3 main_v4 (addf : (⟨S256x8192x1, .f32⟩ : BufTy).Contents (Elt F) → (⟨S256x8192x1, .f32⟩ : BufTy).Contents (Elt F) → (⟨S256x8192x1, .f32⟩ : BufTy).Contents (Elt F)),
    binary main_v4 main_v1 main_v5 ((fun a b => concatenate S256x8192x2 2 [⟨S256x8192x1, a⟩, ⟨S256x8192x1, b⟩] concatenates_S256x8192x1_S256x8192x1_S256x8192x2_d2) : (⟨S256x8192x1, .f32⟩ : BufTy).Contents (Elt F) → (⟨S256x8192x1, .f32⟩ : BufTy).Contents (Elt F) → (⟨S256x8192x2, .f32⟩ : BufTy).Contents (Elt F)) ]

/-- Trip 2 of the loop: the next reflection coefficient sliced out, the old coefficients reversed, the product, the
    sum, the new coefficient appended. -/
abbrev st1 : List (HloOp τ sig (Elt F)) :=
  [ unary main_arg0 main_v6 ((extractStridedSlice S256x8192x1 ![0, 0, 2] · slices_S256x8192x16_S256x8192x1_0_0_2) : (⟨S256x8192x16, .f32⟩ : BufTy).Contents (Elt F) → (⟨S256x8192x1, .f32⟩ : BufTy).Contents (Elt F)),
    unary main_v5 main_v7 (Host.reverse [2] : (⟨S256x8192x2, .f32⟩ : BufTy).Contents (Elt F) → (⟨S256x8192x2, .f32⟩ : BufTy).Contents (Elt F)),
    unary main_v6 main_v8 (broadcastInDim S256x8192x2 ![0, 1, 2] bcast_S256x8192x1_S256x8192x2_0_1_2 : (⟨S256x8192x1, .f32⟩ : BufTy).Contents (Elt F) → (⟨S256x8192x2, .f32⟩ : BufTy).Contents (Elt F)),
    binary main_v8 main_v7 main_v9 (mulf : (⟨S256x8192x2, .f32⟩ : BufTy).Contents (Elt F) → (⟨S256x8192x2, .f32⟩ : BufTy).Contents (Elt F) → (⟨S256x8192x2, .f32⟩ : BufTy).Contents (Elt F)),
    binary main_v5 main_v9 main_v10 (addf : (⟨S256x8192x2, .f32⟩ : BufTy).Contents (Elt F) → (⟨S256x8192x2, .f32⟩ : BufTy).Contents (Elt F) → (⟨S256x8192x2, .f32⟩ : BufTy).Contents (Elt F)),
    binary main_v10 main_v6 main_v11 ((fun a b => concatenate S256x8192x3 2 [⟨S256x8192x2, a⟩, ⟨S256x8192x1, b⟩] concatenates_S256x8192x2_S256x8192x1_S256x8192x3_d2) : (⟨S256x8192x2, .f32⟩ : BufTy).Contents (Elt F) → (⟨S256x8192x1, .f32⟩ : BufTy).Contents (Elt F) → (⟨S256x8192x3, .f32⟩ : BufTy).Contents (Elt F)) ]

/-- Trip 3 of the loop: the next reflection coefficient sliced out, the old coefficients reversed, the product, the
    sum, the new coefficient appended. -/
abbrev st2 : List (HloOp τ sig (Elt F)) :=
  [ unary main_arg0 main_v12 ((extractStridedSlice S256x8192x1 ![0, 0, 3] · slices_S256x8192x16_S256x8192x1_0_0_3) : (⟨S256x8192x16, .f32⟩ : BufTy).Contents (Elt F) → (⟨S256x8192x1, .f32⟩ : BufTy).Contents (Elt F)),
    unary main_v11 main_v13 (Host.reverse [2] : (⟨S256x8192x3, .f32⟩ : BufTy).Contents (Elt F) → (⟨S256x8192x3, .f32⟩ : BufTy).Contents (Elt F)),
    unary main_v12 main_v14 (broadcastInDim S256x8192x3 ![0, 1, 2] bcast_S256x8192x1_S256x8192x3_0_1_2 : (⟨S256x8192x1, .f32⟩ : BufTy).Contents (Elt F) → (⟨S256x8192x3, .f32⟩ : BufTy).Contents (Elt F)),
    binary main_v14 main_v13 main_v15 (mulf : (⟨S256x8192x3, .f32⟩ : BufTy).Contents (Elt F) → (⟨S256x8192x3, .f32⟩ : BufTy).Contents (Elt F) → (⟨S256x8192x3, .f32⟩ : BufTy).Contents (Elt F)),
    binary main_v11 main_v15 main_v16 (addf : (⟨S256x8192x3, .f32⟩ : BufTy).Contents (Elt F) → (⟨S256x8192x3, .f32⟩ : BufTy).Contents (Elt F) → (⟨S256x8192x3, .f32⟩ : BufTy).Contents (Elt F)),
    binary main_v16 main_v12 main_v17 ((fun a b => concatenate S256x8192x4 2 [⟨S256x8192x3, a⟩, ⟨S256x8192x1, b⟩] concatenates_S256x8192x3_S256x8192x1_S256x8192x4_d2) : (⟨S256x8192x3, .f32⟩ : BufTy).Contents (Elt F) → (⟨S256x8192x1, .f32⟩ : BufTy).Contents (Elt F) → (⟨S256x8192x4, .f32⟩ : BufTy).Contents (Elt F)) ]

/-- Trip 4 of the loop: the next reflection coefficient sliced out, the old coefficients reversed, the product, the
    sum, the new coefficient appended. -/
abbrev st3 : List (HloOp τ sig (Elt F)) :=
  [ unary main_arg0 main_v18 ((extractStridedSlice S256x8192x1 ![0, 0, 4] · slices_S256x8192x16_S256x8192x1_0_0_4) : (⟨S256x8192x16, .f32⟩ : BufTy).Contents (Elt F) → (⟨S256x8192x1, .f32⟩ : BufTy).Contents (Elt F)),
    unary main_v17 main_v19 (Host.reverse [2] : (⟨S256x8192x4, .f32⟩ : BufTy).Contents (Elt F) → (⟨S256x8192x4, .f32⟩ : BufTy).Contents (Elt F)),
    unary main_v18 main_v20 (broadcastInDim S256x8192x4 ![0, 1, 2] bcast_S256x8192x1_S256x8192x4_0_1_2 : (⟨S256x8192x1, .f32⟩ : BufTy).Contents (Elt F) → (⟨S256x8192x4, .f32⟩ : BufTy).Contents (Elt F)),
    binary main_v20 main_v19 main_v21 (mulf : (⟨S256x8192x4, .f32⟩ : BufTy).Contents (Elt F) → (⟨S256x8192x4, .f32⟩ : BufTy).Contents (Elt F) → (⟨S256x8192x4, .f32⟩ : BufTy).Contents (Elt F)),
    binary main_v17 main_v21 main_v22 (addf : (⟨S256x8192x4, .f32⟩ : BufTy).Contents (Elt F) → (⟨S256x8192x4, .f32⟩ : BufTy).Contents (Elt F) → (⟨S256x8192x4, .f32⟩ : BufTy).Contents (Elt F)),
    binary main_v22 main_v18 main_v23 ((fun a b => concatenate S256x8192x5 2 [⟨S256x8192x4, a⟩, ⟨S256x8192x1, b⟩] concatenates_S256x8192x4_S256x8192x1_S256x8192x5_d2) : (⟨S256x8192x4, .f32⟩ : BufTy).Contents (Elt F) → (⟨S256x8192x1, .f32⟩ : BufTy).Contents (Elt F) → (⟨S256x8192x5, .f32⟩ : BufTy).Contents (Elt F)) ]

/-- Trip 5 of the loop: the next reflection coefficient sliced out, the old coefficients reversed, the product, the
    sum, the new coefficient appended. -/
abbrev st4 : List (HloOp τ sig (Elt F)) :=
  [ unary main_arg0 main_v24 ((extractStridedSlice S256x8192x1 ![0, 0, 5] · slices_S256x8192x16_S256x8192x1_0_0_5) : (⟨S256x8192x16, .f32⟩ : BufTy).Contents (Elt F) → (⟨S256x8192x1, .f32⟩ : BufTy).Contents (Elt F)),
    unary main_v23 main_v25 (Host.reverse [2] : (⟨S256x8192x5, .f32⟩ : BufTy).Contents (Elt F) → (⟨S256x8192x5, .f32⟩ : BufTy).Contents (Elt F)),
    unary main_v24 main_v26 (broadcastInDim S256x8192x5 ![0, 1, 2] bcast_S256x8192x1_S256x8192x5_0_1_2 : (⟨S256x8192x1, .f32⟩ : BufTy).Contents (Elt F) → (⟨S256x8192x5, .f32⟩ : BufTy).Contents (Elt F)),
    binary main_v26 main_v25 main_v27 (mulf : (⟨S256x8192x5, .f32⟩ : BufTy).Contents (Elt F) → (⟨S256x8192x5, .f32⟩ : BufTy).Contents (Elt F) → (⟨S256x8192x5, .f32⟩ : BufTy).Contents (Elt F)),
    binary main_v23 main_v27 main_v28 (addf : (⟨S256x8192x5, .f32⟩ : BufTy).Contents (Elt F) → (⟨S256x8192x5, .f32⟩ : BufTy).Contents (Elt F) → (⟨S256x8192x5, .f32⟩ : BufTy).Contents (Elt F)),
    binary main_v28 main_v24 main_v29 ((fun a b => concatenate S256x8192x6 2 [⟨S256x8192x5, a⟩, ⟨S256x8192x1, b⟩] concatenates_S256x8192x5_S256x8192x1_S256x8192x6_d2) : (⟨S256x8192x5, .f32⟩ : BufTy).Contents (Elt F) → (⟨S256x8192x1, .f32⟩ : BufTy).Contents (Elt F) → (⟨S256x8192x6, .f32⟩ : BufTy).Contents (Elt F)) ]

/-- Trip 6 of the loop: the next reflection coefficient sliced out, the old coefficients reversed, the product, the
    sum, the new coefficient appended. -/
abbrev st5 : List (HloOp τ sig (Elt F)) :=
  [ unary main_arg0 main_v30 ((extractStridedSlice S256x8192x1 ![0, 0, 6] · slices_S256x8192x16_S256x8192x1_0_0_6) : (⟨S256x8192x16, .f32⟩ : BufTy).Contents (Elt F) → (⟨S256x8192x1, .f32⟩ : BufTy).Contents (Elt F)),
    unary main_v29 main_v31 (Host.reverse [2] : (⟨S256x8192x6, .f32⟩ : BufTy).Contents (Elt F) → (⟨S256x8192x6, .f32⟩ : BufTy).Contents (Elt F)),
    unary main_v30 main_v32 (broadcastInDim S256x8192x6 ![0, 1, 2] bcast_S256x8192x1_S256x8192x6_0_1_2 : (⟨S256x8192x1, .f32⟩ : BufTy).Contents (Elt F) → (⟨S256x8192x6, .f32⟩ : BufTy).Contents (Elt F)),
    binary main_v32 main_v31 main_v33 (mulf : (⟨S256x8192x6, .f32⟩ : BufTy).Contents (Elt F) → (⟨S256x8192x6, .f32⟩ : BufTy).Contents (Elt F) → (⟨S256x8192x6, .f32⟩ : BufTy).Contents (Elt F)),
    binary main_v29 main_v33 main_v34 (addf : (⟨S256x8192x6, .f32⟩ : BufTy).Contents (Elt F) → (⟨S256x8192x6, .f32⟩ : BufTy).Contents (Elt F) → (⟨S256x8192x6, .f32⟩ : BufTy).Contents (Elt F)),
    binary main_v34 main_v30 main_v35 ((fun a b => concatenate S256x8192x7 2 [⟨S256x8192x6, a⟩, ⟨S256x8192x1, b⟩] concatenates_S256x8192x6_S256x8192x1_S256x8192x7_d2) : (⟨S256x8192x6, .f32⟩ : BufTy).Contents (Elt F) → (⟨S256x8192x1, .f32⟩ : BufTy).Contents (Elt F) → (⟨S256x8192x7, .f32⟩ : BufTy).Contents (Elt F)) ]

/-- Trip 7 of the loop: the next reflection coefficient sliced out, the old coefficients reversed, the product, the
    sum, the new coefficient appended. -/
abbrev st6 : List (HloOp τ sig (Elt F)) :=
  [ unary main_arg0 main_v36 ((extractStridedSlice S256x8192x1 ![0, 0, 7] · slices_S256x8192x16_S256x8192x1_0_0_7) : (⟨S256x8192x16, .f32⟩ : BufTy).Contents (Elt F) → (⟨S256x8192x1, .f32⟩ : BufTy).Contents (Elt F)),
    unary main_v35 main_v37 (Host.reverse [2] : (⟨S256x8192x7, .f32⟩ : BufTy).Contents (Elt F) → (⟨S256x8192x7, .f32⟩ : BufTy).Contents (Elt F)),
    unary main_v36 main_v38 (broadcastInDim S256x8192x7 ![0, 1, 2] bcast_S256x8192x1_S256x8192x7_0_1_2 : (⟨S256x8192x1, .f32⟩ : BufTy).Contents (Elt F) → (⟨S256x8192x7, .f32⟩ : BufTy).Contents (Elt F)),
    binary main_v38 main_v37 main_v39 (mulf : (⟨S256x8192x7, .f32⟩ : BufTy).Contents (Elt F) → (⟨S256x8192x7, .f32⟩ : BufTy).Contents (Elt F) → (⟨S256x8192x7, .f32⟩ : BufTy).Contents (Elt F)),
    binary main_v35 main_v39 main_v40 (addf : (⟨S256x8192x7, .f32⟩ : BufTy).Contents (Elt F) → (⟨S256x8192x7, .f32⟩ : BufTy).Contents (Elt F) → (⟨S256x8192x7, .f32⟩ : BufTy).Contents (Elt F)),
    binary main_v40 main_v36 main_v41 ((fun a b => concatenate S256x8192x8 2 [⟨S256x8192x7, a⟩, ⟨S256x8192x1, b⟩] concatenates_S256x8192x7_S256x8192x1_S256x8192x8_d2) : (⟨S256x8192x7, .f32⟩ : BufTy).Contents (Elt F) → (⟨S256x8192x1, .f32⟩ : BufTy).Contents (Elt F) → (⟨S256x8192x8, .f32⟩ : BufTy).Contents (Elt F)) ]

/-- Trip 8 of the loop: the next reflection coefficient sliced out, the old coefficients reversed, the product, the
    sum, the new coefficient appended. -/
abbrev st7 : List (HloOp τ sig (Elt F)) :=
  [ unary main_arg0 main_v42 ((extractStridedSlice S256x8192x1 ![0, 0, 8] · slices_S256x8192x16_S256x8192x1_0_0_8) : (⟨S256x8192x16, .f32⟩ : BufTy).Contents (Elt F) → (⟨S256x8192x1, .f32⟩ : BufTy).Contents (Elt F)),
    unary main_v41 main_v43 (Host.reverse [2] : (⟨S256x8192x8, .f32⟩ : BufTy).Contents (Elt F) → (⟨S256x8192x8, .f32⟩ : BufTy).Contents (Elt F)),
    unary main_v42 main_v44 (broadcastInDim S256x8192x8 ![0, 1, 2] bcast_S256x8192x1_S256x8192x8_0_1_2 : (⟨S256x8192x1, .f32⟩ : BufTy).Contents (Elt F) → (⟨S256x8192x8, .f32⟩ : BufTy).Contents (Elt F)),
    binary main_v44 main_v43 main_v45 (mulf : (⟨S256x8192x8, .f32⟩ : BufTy).Contents (Elt F) → (⟨S256x8192x8, .f32⟩ : BufTy).Contents (Elt F) → (⟨S256x8192x8, .f32⟩ : BufTy).Contents (Elt F)),
    binary main_v41 main_v45 main_v46 (addf : (⟨S256x8192x8, .f32⟩ : BufTy).Contents (Elt F) → (⟨S256x8192x8, .f32⟩ : BufTy).Contents (Elt F) → (⟨S256x8192x8, .f32⟩ : BufTy).Contents (Elt F)),
    binary main_v46 main_v42 main_v47 ((fun a b => concatenate S256x8192x9 2 [⟨S256x8192x8, a⟩, ⟨S256x8192x1, b⟩] concatenates_S256x8192x8_S256x8192x1_S256x8192x9_d2) : (⟨S256x8192x8, .f32⟩ : BufTy).Contents (Elt F) → (⟨S256x8192x1, .f32⟩ : BufTy).Contents (Elt F) → (⟨S256x8192x9, .f32⟩ : BufTy).Contents (Elt F)) ]

/-- Trip 9 of the loop: the next reflection coefficient sliced out, the old coefficients reversed, the product, the
    sum, the new coefficient appended. -/
abbrev st8 : List (HloOp τ sig (Elt F)) :=
  [ unary main_arg0 main_v48 ((extractStridedSlice S256x8192x1 ![0, 0, 9] · slices_S256x8192x16_S256x8192x1_0_0_9) : (⟨S256x8192x16, .f32⟩ : BufTy).Contents (Elt F) → (⟨S256x8192x1, .f32⟩ : BufTy).Contents (Elt F)),
    unary main_v47 main_v49 (Host.reverse [2] : (⟨S256x8192x9, .f32⟩ : BufTy).Contents (Elt F) → (⟨S256x8192x9, .f32⟩ : BufTy).Contents (Elt F)),
    unary main_v48 main_v50 (broadcastInDim S256x8192x9 ![0, 1, 2] bcast_S256x8192x1_S256x8192x9_0_1_2 : (⟨S256x8192x1, .f32⟩ : BufTy).Contents (Elt F) → (⟨S256x8192x9, .f32⟩ : BufTy).Contents (Elt F)),
    binary main_v50 main_v49 main_v51 (mulf : (⟨S256x8192x9, .f32⟩ : BufTy).Contents (Elt F) → (⟨S256x8192x9, .f32⟩ : BufTy).Contents (Elt F) → (⟨S256x8192x9, .f32⟩ : BufTy).Contents (Elt F)),
    binary main_v47 main_v51 main_v52 (addf : (⟨S256x8192x9, .f32⟩ : BufTy).Contents (Elt F) → (⟨S256x8192x9, .f32⟩ : BufTy).Contents (Elt F) → (⟨S256x8192x9, .f32⟩ : BufTy).Contents (Elt F)),
    binary main_v52 main_v48 main_v53 ((fun a b => concatenate S256x8192x10 2 [⟨S256x8192x9, a⟩, ⟨S256x8192x1, b⟩] concatenates_S256x8192x9_S256x8192x1_S256x8192x10_d2) : (⟨S256x8192x9, .f32⟩ : BufTy).Contents (Elt F) → (⟨S256x8192x1, .f32⟩ : BufTy).Contents (Elt F) → (⟨S256x8192x10, .f32⟩ : BufTy).Contents (Elt F)) ]

/-- Trip 10 of the loop: the next reflection coefficient sliced out, the old coefficients reversed, the product, the
    sum, the new coefficient appended. -/
abbrev st9 : List (HloOp τ sig (Elt F)) :=
  [ unary main_arg0 main_v54 ((extractStridedSlice S256x8192x1 ![0, 0, 10] · slices_S256x8192x16_S256x8192x1_0_0_10) : (⟨S256x8192x16, .f32⟩ : BufTy).Contents (Elt F) → (⟨S256x8192x1, .f32⟩ : BufTy).Contents (Elt F)),
    unary main_v53 main_v55 (Host.reverse [2] : (⟨S256x8192x10, .f32⟩ : BufTy).Contents (Elt F) → (⟨S256x8192x10, .f32⟩ : BufTy).Contents (Elt F)),
    unary main_v54 main_v56 (broadcastInDim S256x8192x10 ![0, 1, 2] bcast_S256x8192x1_S256x8192x10_0_1_2 : (⟨S256x8192x1, .f32⟩ : BufTy).Contents (Elt F) → (⟨S256x8192x10, .f32⟩ : BufTy).Contents (Elt F)),
    binary main_v56 main_v55 main_v57 (mulf : (⟨S256x8192x10, .f32⟩ : BufTy).Contents (Elt F) → (⟨S256x8192x10, .f32⟩ : BufTy).Contents (Elt F) → (⟨S256x8192x10, .f32⟩ : BufTy).Contents (Elt F)),
    binary main_v53 main_v57 main_v58 (addf : (⟨S256x8192x10, .f32⟩ : BufTy).Contents (Elt F) → (⟨S256x8192x10, .f32⟩ : BufTy).Contents (Elt F) → (⟨S256x8192x10, .f32⟩ : BufTy).Contents (Elt F)),
    binary main_v58 main_v54 main_v59 ((fun a b => concatenate S256x8192x11 2 [⟨S256x8192x10, a⟩, ⟨S256x8192x1, b⟩] concatenates_S256x8192x10_S256x8192x1_S256x8192x11_d2) : (⟨S256x8192x10, .f32⟩ : BufTy).Contents (Elt F) → (⟨S256x8192x1, .f32⟩ : BufTy).Contents (Elt F) → (⟨S256x8192x11, .f32⟩ : BufTy).Contents (Elt F)) ]

/-- Trip 11 of the loop: the next reflection coefficient sliced out, the old coefficients reversed, the product, the
    sum, the new coefficient appended. -/
abbrev st10 : List (HloOp τ sig (Elt F)) :=
  [ unary main_arg0 main_v60 ((extractStridedSlice S256x8192x1 ![0, 0, 11] · slices_S256x8192x16_S256x8192x1_0_0_11) : (⟨S256x8192x16, .f32⟩ : BufTy).Contents (Elt F) → (⟨S256x8192x1, .f32⟩ : BufTy).Contents (Elt F)),
    unary main_v59 main_v61 (Host.reverse [2] : (⟨S256x8192x11, .f32⟩ : BufTy).Contents (Elt F) → (⟨S256x8192x11, .f32⟩ : BufTy).Contents (Elt F)),
    unary main_v60 main_v62 (broadcastInDim S256x8192x11 ![0, 1, 2] bcast_S256x8192x1_S256x8192x11_0_1_2 : (⟨S256x8192x1, .f32⟩ : BufTy).Contents (Elt F) → (⟨S256x8192x11, .f32⟩ : BufTy).Contents (Elt F)),
    binary main_v62 main_v61 main_v63 (mulf : (⟨S256x8192x11, .f32⟩ : BufTy).Contents (Elt F) → (⟨S256x8192x11, .f32⟩ : BufTy).Contents (Elt F) → (⟨S256x8192x11, .f32⟩ : BufTy).Contents (Elt F)),
    binary main_v59 main_v63 main_v64 (addf : (⟨S256x8192x11, .f32⟩ : BufTy).Contents (Elt F) → (⟨S256x8192x11, .f32⟩ : BufTy).Contents (Elt F) → (⟨S256x8192x11, .f32⟩ : BufTy).Contents (Elt F)),
    binary main_v64 main_v60 main_v65 ((fun a b => concatenate S256x8192x12 2 [⟨S256x8192x11, a⟩, ⟨S256x8192x1, b⟩] concatenates_S256x8192x11_S256x8192x1_S256x8192x12_d2) : (⟨S256x8192x11, .f32⟩ : BufTy).Contents (Elt F) → (⟨S256x8192x1, .f32⟩ : BufTy).Contents (Elt F) → (⟨S256x8192x12, .f32⟩ : BufTy).Contents (Elt F)) ]

/-- Trip 12 of the loop: the next reflection coefficient sliced out, the old coefficients reversed, the product, the
    sum, the new coefficient appended. -/
abbrev st11 : List (HloOp τ sig (Elt F)) :=
  [ unary main_arg0 main_v66 ((extractStridedSlice S256x8192x1 ![0, 0, 12] · slices_S256x8192x16_S256x8192x1_0_0_12) : (⟨S256x8192x16, .f32⟩ : BufTy).Contents (Elt F) → (⟨S256x8192x1, .f32⟩ : BufTy).Contents (Elt F)),
    unary main_v65 main_v67 (Host.reverse [2] : (⟨S256x8192x12, .f32⟩ : BufTy).Contents (Elt F) → (⟨S256x8192x12, .f32⟩ : BufTy).Contents (Elt F)),
    unary main_v66 main_v68 (broadcastInDim S256x8192x12 ![0, 1, 2] bcast_S256x8192x1_S256x8192x12_0_1_2 : (⟨S256x8192x1, .f32⟩ : BufTy).Contents (Elt F) → (⟨S256x8192x12, .f32⟩ : BufTy).Contents (Elt F)),
    binary main_v68 main_v67 main_v69 (mulf : (⟨S256x8192x12, .f32⟩ : BufTy).Contents (Elt F) → (⟨S256x8192x12, .f32⟩ : BufTy).Contents (Elt F) → (⟨S256x8192x12, .f32⟩ : BufTy).Contents (Elt F)),
    binary main_v65 main_v69 main_v70 (addf : (⟨S256x8192x12, .f32⟩ : BufTy).Contents (Elt F) → (⟨S256x8192x12, .f32⟩ : BufTy).Contents (Elt F) → (⟨S256x8192x12, .f32⟩ : BufTy).Contents (Elt F)),
    binary main_v70 main_v66 main_v71 ((fun a b => concatenate S256x8192x13 2 [⟨S256x8192x12, a⟩, ⟨S256x8192x1, b⟩] concatenates_S256x8192x12_S256x8192x1_S256x8192x13_d2) : (⟨S256x8192x12, .f32⟩ : BufTy).Contents (Elt F) → (⟨S256x8192x1, .f32⟩ : BufTy).Contents (Elt F) → (⟨S256x8192x13, .f32⟩ : BufTy).Contents (Elt F)) ]

/-- Trip 13 of the loop: the next reflection coefficient sliced out, the old coefficients reversed, the product, the
    sum, the new coefficient appended. -/
abbrev st12 : List (HloOp τ sig (Elt F)) :=
  [ unary main_arg0 main_v72 ((extractStridedSlice S256x8192x1 ![0, 0, 13] · slices_S256x8192x16_S256x8192x1_0_0_13) : (⟨S256x8192x16, .f32⟩ : BufTy).Contents (Elt F) → (⟨S256x8192x1, .f32⟩ : BufTy).Contents (Elt F)),
    unary main_v71 main_v73 (Host.reverse [2] : (⟨S256x8192x13, .f32⟩ : BufTy).Contents (Elt F) → (⟨S256x8192x13, .f32⟩ : BufTy).Contents (Elt F)),
    unary main_v72 main_v74 (broadcastInDim S256x8192x13 ![0, 1, 2] bcast_S256x8192x1_S256x8192x13_0_1_2 : (⟨S256x8192x1, .f32⟩ : BufTy).Contents (Elt F) → (⟨S256x8192x13, .f32⟩ : BufTy).Contents (Elt F)),
    binary main_v74 main_v73 main_v75 (mulf : (⟨S256x8192x13, .f32⟩ : BufTy).Contents (Elt F) → (⟨S256x8192x13, .f32⟩ : BufTy).Contents (Elt F) → (⟨S256x8192x13, .f32⟩ : BufTy).Contents (Elt F)),
    binary main_v71 main_v75 main_v76 (addf : (⟨S256x8192x13, .f32⟩ : BufTy).Contents (Elt F) → (⟨S256x8192x13, .f32⟩ : BufTy).Contents (Elt F) → (⟨S256x8192x13, .f32⟩ : BufTy).Contents (Elt F)),
    binary main_v76 main_v72 main_v77 ((fun a b => concatenate S256x8192x14 2 [⟨S256x8192x13, a⟩, ⟨S256x8192x1, b⟩] concatenates_S256x8192x13_S256x8192x1_S256x8192x14_d2) : (⟨S256x8192x13, .f32⟩ : BufTy).Contents (Elt F) → (⟨S256x8192x1, .f32⟩ : BufTy).Contents (Elt F) → (⟨S256x8192x14, .f32⟩ : BufTy).Contents (Elt F)) ]

/-- Trip 14 of the loop: the next reflection coefficient sliced out, the old coefficients reversed, the product, the
    sum, the new coefficient appended. -/
abbrev st13 : List (HloOp τ sig (Elt F)) :=
  [ unary main_arg0 main_v78 ((extractStridedSlice S256x8192x1 ![0, 0, 14] · slices_S256x8192x16_S256x8192x1_0_0_14) : (⟨S256x8192x16, .f32⟩ : BufTy).Contents (Elt F) → (⟨S256x8192x1, .f32⟩ : BufTy).Contents (Elt F)),
    unary main_v77 main_v79 (Host.reverse [2] : (⟨S256x8192x14, .f32⟩ : BufTy).Contents (Elt F) → (⟨S256x8192x14, .f32⟩ : BufTy).Contents (Elt F)),
    unary main_v78 main_v80 (broadcastInDim S256x8192x14 ![0, 1, 2] bcast_S256x8192x1_S256x8192x14_0_1_2 : (⟨S256x8192x1, .f32⟩ : BufTy).Contents (Elt F) → (⟨S256x8192x14, .f32⟩ : BufTy).Contents (Elt F)),
    binary main_v80 main_v79 main_v81 (mulf : (⟨S256x8192x14, .f32⟩ : BufTy).Contents (Elt F) → (⟨S256x8192x14, .f32⟩ : BufTy).Contents (Elt F) → (⟨S256x8192x14, .f32⟩ : BufTy).Contents (Elt F)),
    binary main_v77 main_v81 main_v82 (addf : (⟨S256x8192x14, .f32⟩ : BufTy).Contents (Elt F) → (⟨S256x8192x14, .f32⟩ : BufTy).Contents (Elt F) → (⟨S256x8192x14, .f32⟩ : BufTy).Contents (Elt F)),
    binary main_v82 main_v78 main_v83 ((fun a b => concatenate S256x8192x15 2 [⟨S256x8192x14, a⟩, ⟨S256x8192x1, b⟩] concatenates_S256x8192x14_S256x8192x1_S256x8192x15_d2) : (⟨S256x8192x14, .f32⟩ : BufTy).Contents (Elt F) → (⟨S256x8192x1, .f32⟩ : BufTy).Contents (Elt F) → (⟨S256x8192x15, .f32⟩ : BufTy).Contents (Elt F)) ]

/-- Trip 15 of the loop: the next reflection coefficient sliced out, the old coefficients reversed, the product, the
    sum, the new coefficient appended. -/
abbrev st14 : List (HloOp τ sig (Elt F)) :=
  [ unary main_arg0 main_v84 ((extractStridedSlice S256x8192x1 ![0, 0, 15] · slices_S256x8192x16_S256x8192x1_0_0_15) : (⟨S256x8192x16, .f32⟩ : BufTy).Contents (Elt F) → (⟨S256x8192x1, .f32⟩ : BufTy).Contents (Elt F)),
    unary main_v83 main_v85 (Host.reverse [2] : (⟨S256x8192x15, .f32⟩ : BufTy).Contents (Elt F) → (⟨S256x8192x15, .f32⟩ : BufTy).Contents (Elt F)),
    unary main_v84 main_v86 (broadcastInDim S256x8192x15 ![0, 1, 2] bcast_S256x8192x1_S256x8192x15_0_1_2 : (⟨S256x8192x1, .f32⟩ : BufTy).Contents (Elt F) → (⟨S256x8192x15, .f32⟩ : BufTy).Contents (Elt F)),
    binary main_v86 main_v85 main_v87 (mulf : (⟨S256x8192x15, .f32⟩ : BufTy).Contents (Elt F) → (⟨S256x8192x15, .f32⟩ : BufTy).Contents (Elt F) → (⟨S256x8192x15, .f32⟩ : BufTy).Contents (Elt F)),
    binary main_v83 main_v87 main_v88 (addf : (⟨S256x8192x15, .f32⟩ : BufTy).Contents (Elt F) → (⟨S256x8192x15, .f32⟩ : BufTy).Contents (Elt F) → (⟨S256x8192x15, .f32⟩ : BufTy).Contents (Elt F)),
    binary main_v88 main_v84 main_v89 ((fun a b => concatenate S256x8192x16 2 [⟨S256x8192x15, a⟩, ⟨S256x8192x1, b⟩] concatenates_S256x8192x15_S256x8192x1_S256x8192x16_d2) : (⟨S256x8192x15, .f32⟩ : BufTy).Contents (Elt F) → (⟨S256x8192x1, .f32⟩ : BufTy).Contents (Elt F) → (⟨S256x8192x16, .f32⟩ : BufTy).Contents (Elt F)) ]

/-- The operations are the fifteen trips, one after the other. -/
theorem ops_eq : (ops : List (HloOp τ sig (Elt F))) = st0 ++ st1 ++ st2 ++ st3 ++ st4 ++ st5 ++ st6 ++ st7 ++ st8 ++ st9 ++ st10 ++ st11 ++ st12 ++ st13 ++ st14 := rfl

/-- Running one list of operations after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The invariant of the loop: the argument array is still `rc`, and `L` holds the order-`n` coefficients. -/
def Inv (rc : FVec Ideal (Sh 16) .f32) (n : ℕ) (x : FVec Ideal (Sh 16) .f32) (L : FVec Ideal (Sh (n + 1)) .f32) : Prop :=
  x = rc ∧ IsOrder rc n L

/-- The first trip, from the argument alone: order 1. -/
theorem stage0 (V : Valuation τ sig (Elt Ideal)) :
    Inv (V (Proc.devRef .tc main_arg0)) 1 (after (st0 (F := Ideal)) V (Proc.devRef .tc main_arg0)) (after (st0 (F := Ideal)) V (Proc.devRef .tc main_v5)) := by
  unfold st0
  refine ⟨?_, ?_⟩
  · after_results
  · after_results
    refine order_succ (V (Proc.devRef .tc main_arg0)) 0 (by omega) _ ?_ _ _ ?_ ?_ _
    · intro a b j
      obtain rfl : j = 0 := Fin.ext (by have := j.isLt; omega)
      rw [stepUp_zero]
      refine (RefStep.column_apply (V (Proc.devRef .tc main_arg0)) 0 (by omega) _ rfl _ a b).trans ?_
      unfold arrayCoeffs; rw [dif_pos (by omega)]
    · intro a b
      exact RefStep.column_apply (V (Proc.devRef .tc main_arg0)) 1 (by omega) _ rfl _ a b
    · intro a b j
      obtain rfl : j = 0 := Fin.ext (by have := j.isLt; omega)
      rfl

theorem stage1 (rc : FVec Ideal (Sh 16) .f32) (V : Valuation τ sig (Elt Ideal))
    (h : Inv rc 1 (V (Proc.devRef .tc main_arg0)) (V (Proc.devRef .tc main_v5))) :
    Inv rc 2 (after (st1 (F := Ideal)) V (Proc.devRef .tc main_arg0)) (after (st1 (F := Ideal)) V (Proc.devRef .tc main_v11)) := by
  obtain ⟨h0, hL⟩ := h
  subst h0
  unfold st1
  refine ⟨?_, ?_⟩
  · after_results
  · after_results
    refine order_succ (V (Proc.devRef .tc main_arg0)) 1 (by omega) _ hL _ _ ?_ ?_ _
    · intro a b
      exact RefStep.column_apply (V (Proc.devRef .tc main_arg0)) 2 (by omega) _ rfl _ a b
    · intro a b j
      exact RefStep.spread_apply _ _ a b j

theorem stage2 (rc : FVec Ideal (Sh 16) .f32) (V : Valuation τ sig (Elt Ideal))
    (h : Inv rc 2 (V (Proc.devRef .tc main_arg0)) (V (Proc.devRef .tc main_v11))) :
    Inv rc 3 (after (st2 (F := Ideal)) V (Proc.devRef .tc main_arg0)) (after (st2 (F := Ideal)) V (Proc.devRef .tc main_v17)) := by
  obtain ⟨h0, hL⟩ := h
  subst h0
  unfold st2
  refine ⟨?_, ?_⟩
  · after_results
  · after_results
    refine order_succ (V (Proc.devRef .tc main_arg0)) 2 (by omega) _ hL _ _ ?_ ?_ _
    · intro a b
      exact RefStep.column_apply (V (Proc.devRef .tc main_arg0)) 3 (by omega) _ rfl _ a b
    · intro a b j
      exact RefStep.spread_apply _ _ a b j

theorem stage3 (rc : FVec Ideal (Sh 16) .f32) (V : Valuation τ sig (Elt Ideal))
    (h : Inv rc 3 (V (Proc.devRef .tc main_arg0)) (V (Proc.devRef .tc main_v17))) :
    Inv rc 4 (after (st3 (F := Ideal)) V (Proc.devRef .tc main_arg0)) (after (st3 (F := Ideal)) V (Proc.devRef .tc main_v23)) := by
  obtain ⟨h0, hL⟩ := h
  subst h0
  unfold st3
  refine ⟨?_, ?_⟩
  · after_results
  · after_results
    refine order_succ (V (Proc.devRef .tc main_arg0)) 3 (by omega) _ hL _ _ ?_ ?_ _
    · intro a b
      exact RefStep.column_apply (V (Proc.devRef .tc main_arg0)) 4 (by omega) _ rfl _ a b
    · intro a b j
      exact RefStep.spread_apply _ _ a b j

theorem stage4 (rc : FVec Ideal (Sh 16) .f32) (V : Valuation τ sig (Elt Ideal))
    (h : Inv rc 4 (V (Proc.devRef .tc main_arg0)) (V (Proc.devRef .tc main_v23))) :
    Inv rc 5 (after (st4 (F := Ideal)) V (Proc.devRef .tc main_arg0)) (after (st4 (F := Ideal)) V (Proc.devRef .tc main_v29)) := by
  obtain ⟨h0, hL⟩ := h
  subst h0
  unfold st4
  refine ⟨?_, ?_⟩
  · after_results
  · after_results
    refine order_succ (V (Proc.devRef .tc main_arg0)) 4 (by omega) _ hL _ _ ?_ ?_ _
    · intro a b
      exact RefStep.column_apply (V (Proc.devRef .tc main_arg0)) 5 (by omega) _ rfl _ a b
    · intro a b j
      exact RefStep.spread_apply _ _ a b j

theorem stage5 (rc : FVec Ideal (Sh 16) .f32) (V : Valuation τ sig (Elt Ideal))
    (h : Inv rc 5 (V (Proc.devRef .tc main_arg0)) (V (Proc.devRef .tc main_v29))) :
    Inv rc 6 (after (st5 (F := Ideal)) V (Proc.devRef .tc main_arg0)) (after (st5 (F := Ideal)) V (Proc.devRef .tc main_v35)) := by
  obtain ⟨h0, hL⟩ := h
  subst h0
  unfold st5
  refine ⟨?_, ?_⟩
  · after_results
  · after_results
    refine order_succ (V (Proc.devRef .tc main_arg0)) 5 (by omega) _ hL _ _ ?_ ?_ _
    · intro a b
      exact RefStep.column_apply (V (Proc.devRef .tc main_arg0)) 6 (by omega) _ rfl _ a b
    · intro a b j
      exact RefStep.spread_apply _ _ a b j

theorem stage6 (rc : FVec Ideal (Sh 16) .f32) (V : Valuation τ sig (Elt Ideal))
    (h : Inv rc 6 (V (Proc.devRef .tc main_arg0)) (V (Proc.devRef .tc main_v35))) :
    Inv rc 7 (after (st6 (F := Ideal)) V (Proc.devRef .tc main_arg0)) (after (st6 (F := Ideal)) V (Proc.devRef .tc main_v41)) := by
  obtain ⟨h0, hL⟩ := h
  subst h0
  unfold st6
  refine ⟨?_, ?_⟩
  · after_results
  · after_results
    refine order_succ (V (Proc.devRef .tc main_arg0)) 6 (by omega) _ hL _ _ ?_ ?_ _
    · intro a b
      exact RefStep.column_apply (V (Proc.devRef .tc main_arg0)) 7 (by omega) _ rfl _ a b
    · intro a b j
      exact RefStep.spread_apply _ _ a b j

theorem stage7 (rc : FVec Ideal (Sh 16) .f32) (V : Valuation τ sig (Elt Ideal))
    (h : Inv rc 7 (V (Proc.devRef .tc main_arg0)) (V (Proc.devRef .tc main_v41))) :
    Inv rc 8 (after (st7 (F := Ideal)) V (Proc.devRef .tc main_arg0)) (after (st7 (F := Ideal)) V (Proc.devRef .tc main_v47)) := by
  obtain ⟨h0, hL⟩ := h
  subst h0
  unfold st7
  refine ⟨?_, ?_⟩
  · after_results
  · after_results
    refine order_succ (V (Proc.devRef .tc main_arg0)) 7 (by omega) _ hL _ _ ?_ ?_ _
    · intro a b
      exact RefStep.column_apply (V (Proc.devRef .tc main_arg0)) 8 (by omega) _ rfl _ a b
    · intro a b j
      exact RefStep.spread_apply _ _ a b j

theorem stage8 (rc : FVec Ideal (Sh 16) .f32) (V : Valuation τ sig (Elt Ideal))
    (h : Inv rc 8 (V (Proc.devRef .tc main_arg0)) (V (Proc.devRef .tc main_v47))) :
    Inv rc 9 (after (st8 (F := Ideal)) V (Proc.devRef .tc main_arg0)) (after (st8 (F := Ideal)) V (Proc.devRef .tc main_v53)) := by
  obtain ⟨h0, hL⟩ := h
  subst h0
  unfold st8
  refine ⟨?_, ?_⟩
  · after_results
  · after_results
    refine order_succ (V (Proc.devRef .tc main_arg0)) 8 (by omega) _ hL _ _ ?_ ?_ _
    · intro a b
      exact RefStep.column_apply (V (Proc.devRef .tc main_arg0)) 9 (by omega) _ rfl _ a b
    · intro a b j
      exact RefStep.spread_apply _ _ a b j

theorem stage9 (rc : FVec Ideal (Sh 16) .f32) (V : Valuation τ sig (Elt Ideal))
    (h : Inv rc 9 (V (Proc.devRef .tc main_arg0)) (V (Proc.devRef .tc main_v53))) :
    Inv rc 10 (after (st9 (F := Ideal)) V (Proc.devRef .tc main_arg0)) (after (st9 (F := Ideal)) V (Proc.devRef .tc main_v59)) := by
  obtain ⟨h0, hL⟩ := h
  subst h0
  unfold st9
  refine ⟨?_, ?_⟩
  · after_results
  · after_results
    refine order_succ (V (Proc.devRef .tc main_arg0)) 9 (by omega) _ hL _ _ ?_ ?_ _
    · intro a b
      exact RefStep.column_apply (V (Proc.devRef .tc main_arg0)) 10 (by omega) _ rfl _ a b
    · intro a b j
      exact RefStep.spread_apply _ _ a b j

theorem stage10 (rc : FVec Ideal (Sh 16) .f32) (V : Valuation τ sig (Elt Ideal))
    (h : Inv rc 10 (V (Proc.devRef .tc main_arg0)) (V (Proc.devRef .tc main_v59))) :
    Inv rc 11 (after (st10 (F := Ideal)) V (Proc.devRef .tc main_arg0)) (after (st10 (F := Ideal)) V (Proc.devRef .tc main_v65)) := by
  obtain ⟨h0, hL⟩ := h
  subst h0
  unfold st10
  refine ⟨?_, ?_⟩
  · after_results
  · after_results
    refine order_succ (V (Proc.devRef .tc main_arg0)) 10 (by omega) _ hL _ _ ?_ ?_ _
    · intro a b
      exact RefStep.column_apply (V (Proc.devRef .tc main_arg0)) 11 (by omega) _ rfl _ a b
    · intro a b j
      exact RefStep.spread_apply _ _ a b j

theorem stage11 (rc : FVec Ideal (Sh 16) .f32) (V : Valuation τ sig (Elt Ideal))
    (h : Inv rc 11 (V (Proc.devRef .tc main_arg0)) (V (Proc.devRef .tc main_v65))) :
    Inv rc 12 (after (st11 (F := Ideal)) V (Proc.devRef .tc main_arg0)) (after (st11 (F := Ideal)) V (Proc.devRef .tc main_v71)) := by
  obtain ⟨h0, hL⟩ := h
  subst h0
  unfold st11
  refine ⟨?_, ?_⟩
  · after_results
  · after_results
    refine order_succ (V (Proc.devRef .tc main_arg0)) 11 (by omega) _ hL _ _ ?_ ?_ _
    · intro a b
      exact RefStep.column_apply (V (Proc.devRef .tc main_arg0)) 12 (by omega) _ rfl _ a b
    · intro a b j
      exact RefStep.spread_apply _ _ a b j

theorem stage12 (rc : FVec Ideal (Sh 16) .f32) (V : Valuation τ sig (Elt Ideal))
    (h : Inv rc 12 (V (Proc.devRef .tc main_arg0)) (V (Proc.devRef .tc main_v71))) :
    Inv rc 13 (after (st12 (F := Ideal)) V (Proc.devRef .tc main_arg0)) (after (st12 (F := Ideal)) V (Proc.devRef .tc main_v77)) := by
  obtain ⟨h0, hL⟩ := h
  subst h0
  unfold st12
  refine ⟨?_, ?_⟩
  · after_results
  · after_results
    refine order_succ (V (Proc.devRef .tc main_arg0)) 12 (by omega) _ hL _ _ ?_ ?_ _
    · intro a b
      exact RefStep.column_apply (V (Proc.devRef .tc main_arg0)) 13 (by omega) _ rfl _ a b
    · intro a b j
      exact RefStep.spread_apply _ _ a b j

theorem stage13 (rc : FVec Ideal (Sh 16) .f32) (V : Valuation τ sig (Elt Ideal))
    (h : Inv rc 13 (V (Proc.devRef .tc main_arg0)) (V (Proc.devRef .tc main_v77))) :
    Inv rc 14 (after (st13 (F := Ideal)) V (Proc.devRef .tc main_arg0)) (after (st13 (F := Ideal)) V (Proc.devRef .tc main_v83)) := by
  obtain ⟨h0, hL⟩ := h
  subst h0
  unfold st13
  refine ⟨?_, ?_⟩
  · after_results
  · after_results
    refine order_succ (V (Proc.devRef .tc main_arg0)) 13 (by omega) _ hL _ _ ?_ ?_ _
    · intro a b
      exact RefStep.column_apply (V (Proc.devRef .tc main_arg0)) 14 (by omega) _ rfl _ a b
    · intro a b j
      exact RefStep.spread_apply _ _ a b j

theorem stage14 (rc : FVec Ideal (Sh 16) .f32) (V : Valuation τ sig (Elt Ideal))
    (h : Inv rc 14 (V (Proc.devRef .tc main_arg0)) (V (Proc.devRef .tc main_v83))) :
    Inv rc 15 (after (st14 (F := Ideal)) V (Proc.devRef .tc main_arg0)) (after (st14 (F := Ideal)) V (Proc.devRef .tc main_v89)) := by
  obtain ⟨h0, hL⟩ := h
  subst h0
  unfold st14
  refine ⟨?_, ?_⟩
  · after_results
  · after_results
    refine order_succ (V (Proc.devRef .tc main_arg0)) 14 (by omega) _ hL _ _ ?_ ?_ _
    · intro a b
      exact RefStep.column_apply (V (Proc.devRef .tc main_arg0)) 15 (by omega) _ rfl _ a b
    · intro a b j
      exact RefStep.spread_apply _ _ a b j

/-- After all fifteen trips: the argument unchanged, the result the order-15 coefficients. -/
theorem after_ops (V : Valuation τ sig (Elt Ideal)) :
    Inv (V (Proc.devRef .tc main_arg0)) 15 (after (ops (F := Ideal)) V (Proc.devRef .tc main_arg0)) (after (ops (F := Ideal)) V (Proc.devRef .tc main_v89)) := by
  rw [ops_eq]
  simp only [after_append]
  exact stage14 _ _ (stage13 _ _ (stage12 _ _ (stage11 _ _ (stage10 _ _ (stage9 _ _ (stage8 _ _ (stage7 _ _ (stage6 _ _ (stage5 _ _ (stage4 _ _ (stage3 _ _ (stage2 _ _ (stage1 _ _ (stage0 V))))))))))))))

/-- The reference's run, read: every weakly fair execution terminates with the result array at the predictor of the
    argument array, which is left as it was. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = predictor (m ((c.tc : Thread nD τ).loc main_arg0) : FVec Ideal (Sh 16) .f32)
      ∧ r.2.mem ((c.tc : Thread nD τ).loc main_arg0) = m ((c.tc : Thread nD τ).loc main_arg0) :=
  (θ_run defs _ _).mono (fun _ h c => by
      obtain ⟨h0, hL⟩ := after_ops (launchContents m c)
      refine ⟨(h c main_v89).trans ?_, (h c main_arg0).trans h0⟩
      funext i
      obtain ⟨a, b, j, rfl⟩ : ∃ (a : Fin 256) (b : Fin 8192) (j : Fin 16), i = ix3 a b j := ⟨i 0, i 1, i 2, eq_ix3 i⟩
      exact hL a b j)
    (run_seq scopedRefs_eq scopedSems_eq defs main (fun _ => ops) main_eq (fun _ => ops_sub) m ρ)

end Cert.ReferenceIdeal.RefRun

end
-- ==== Proof.lean ====
/-
  The kernel computes the reference's function: the step-up recursion from reflection coefficients to
  predictor coefficients, order 15, at every position (a, b) of a [256, 8192, 16] array.

  Both programs run the same recursion with the same operations in the same order — each new coefficient is the
  old one plus the new reflection coefficient times the old coefficients read backwards — so the two results are
  equal on every extended real, and the precondition is never opened. The reference carries the recursion out
  on whole arrays that grow by one entry along the last axis per trip (RefStep.lean, RefRun.lean). The kernel
  cuts the array into [8, 2048, 16] blocks and each block into sixteen bands, brings the coefficient axis to the
  front, runs the recursion on [8, 128] planes, and rotates back (LibStepUpPlanes.lean, KernelPieces.lean,
  KernelBlock.lean, KernelArray.lean). Each side ends at `StepUp.predictor` of the argument array (Spec.lean).

  The kernel's two frames are the generated ones, the reference's is its run with the result dropped, and the
  idealization rewrote nothing, so `preserves` is trivial.
-/
import proofs.«109384_j79336635892365_2_alg».proof.Defs
import proofs.«109384_j79336635892365_2_alg».proof.Proof.Gen.Kernel
import proofs.«109384_j79336635892365_2_alg».proof.Proof.Gen.Kernel.Frame
import proofs.«109384_j79336635892365_2_alg».proof.Proof.Gen.KernelIdeal
import proofs.«109384_j79336635892365_2_alg».proof.Proof.Gen.KernelIdeal.Frame
import proofs.«109384_j79336635892365_2_alg».proof.Proof.Gen.KernelIdeal.Value
import proofs.«109384_j79336635892365_2_alg».proof.Proof.Gen.ReferenceIdeal
import proofs.«109384_j79336635892365_2_alg».proof.Proof.Gen.Pre_finite_inputs
import proofs.«109384_j79336635892365_2_alg».proof.Proof.KernelArray
import proofs.«109384_j79336635892365_2_alg».proof.Proof.RefRun
import Idealize.ShloMosaic.Adequacy
import Idealize.ShloMosaic.Init

noncomputable section

namespace Cert.Proof

open Idealize.ShloMosaic Idealize.ShloMosaic.TcCoe Idealize.SL.Sem StepUp

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.RefRun.run m ρ)

/-- From memories that agree on the argument, both runs end with the predictor of that argument. -/
theorem algebraic : Cert.algebraic_KernelIdeal_ReferenceIdeal := by
  intro m ρ m' ρ' _ hagree
  refine ⟨fun c => predictor (Cert.KernelIdeal.ArrayValue.rc m c), Cert.KernelIdeal.ArrayValue.run m ρ, ?_⟩
  refine (θ_run Cert.ReferenceIdeal.defs _ _).mono (fun _ h c => ⟨(h c).1.trans ?_, (h c).2⟩)
    (Cert.ReferenceIdeal.RefRun.run m' ρ')
  exact congrArg predictor (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
